-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S16384 : Shape := ⟨1, ![16384]⟩
abbrev S26x100001x16 : Shape := ⟨3, ![26, 100001, 16]⟩
abbrev S3x429x256 : Shape := ⟨3, ![3, 429, 256]⟩
abbrev S3x256 : Shape := ⟨2, ![3, 256]⟩
abbrev S3x256x429 : Shape := ⟨3, ![3, 256, 429]⟩
abbrev S3x429 : Shape := ⟨2, ![3, 429]⟩
abbrev S429x1 : Shape := ⟨2, ![429, 1]⟩
abbrev S1 : Shape := ⟨1, ![1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100001x16 : S_.BroadcastsInDim S26x100001x16 (![] : Fin 0 → Fin S26x100001x16.rank)
  reducesTo_S26x100001x16_S_d0_1_2 : S26x100001x16.ReducesTo [0, 1, 2] S_
  bcast_S_S3x429x256 : S_.BroadcastsInDim S3x429x256 (![] : Fin 0 → Fin S3x429x256.rank)
  reducesTo_S3x429x256_S_d0_1_2 : S3x429x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x429 : S_.BroadcastsInDim S3x256x429 (![] : Fin 0 → Fin S3x256x429.rank)
  reducesTo_S3x256x429_S_d0_1_2 : S3x256x429.ReducesTo [0, 1, 2] S_
  bcast_S_S3x429 : S_.BroadcastsInDim S3x429 (![] : Fin 0 → Fin S3x429.rank)
  reducesTo_S3x429_S_d0_1 : S3x429.ReducesTo [0, 1] S_
  bcast_S_S429x1 : S_.BroadcastsInDim S429x1 (![] : Fin 0 → Fin S429x1.rank)
  reducesTo_S429x1_S_d0_1 : S429x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S3x256x429 .f32) (main_arg7 : FVec F S3x429 .f32) (main_arg8 : FVec F S429x1 .f32) (main_arg9 : FVec F S1 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256x429 .f32 := Host.absf main_arg6
  let main_cst_6 : FVec F S_ .f32 := constant S_ .f32 0x7F800000#32
  let main_v20 : FVec F S3x256x429 .f32 := broadcastInDim S3x256x429 ![] bcast_S_S3x256x429 main_cst_6
  let main_v21 : IVec S3x256x429 1 := cmpf .olt main_v19 main_v20
  let main_c_7 : IVec S_ 1 := constantI S_ 1 1#1
  let main_v22 : IVec S_ 1 := (fun x v => Host.reduce IntOp.andi x v reducesTo_S3x256x429_S_d0_1_2 h_S_) main_v21 main_c_7
  let main_v23 : IVec S_ 1 := andi main_v18 main_v22
  let main_v24 : FVec F S3x429 .f32 := Host.absf main_arg7
  let main_cst_8 : FVec F S_ .f32 := constant S_ .f32 0x7F800000#32
  let main_v25 : FVec F S3x429 .f32 := broadcastInDim S3x429 ![] bcast_S_S3x429 main_cst_8
  let main_v26 : IVec S3x429 1 := cmpf .olt main_v24 main_v25
  let main_c_9 : IVec S_ 1 := constantI S_ 1 1#1
  let main_v27 : IVec S_ 1 := (fun x v => Host.reduce IntOp.andi x v reducesTo_S3x429_S_d0_1 h_S_) main_v26 main_c_9
  let main_v28 : IVec S_ 1 := andi main_v23 main_v27
  let main_v29 : FVec F S429x1 .f32 := Host.absf main_arg8
  let main_cst_10 : FVec F S_ .f32 := constant S_ .f32 0x7F800000#32
  let main_v30 : FVec F S429x1 .f32 := broadcastInDim S429x1 ![] bcast_S_S429x1 main_cst_10
  let main_v31 : IVec S429x1 1 := cmpf .olt main_v29 main_v30
  let main_c_11 : IVec S_ 1 := constantI S_ 1 1#1
  let main_v32 : IVec S_ 1 := (fun x v => Host.reduce IntOp.andi x v reducesTo_S429x1_S_d0_1 h_S_) main_v31 main_c_11
  let main_v33 : IVec S_ 1 := andi main_v28 main_v32
  fn_part2 (F := F) main_arg9 main_v33

def fn {F : FTy → Type} [FloatOps F] (main_arg0 : FVec F S16384x13 .f32) (main_arg1 : IVec S16384x26 32) (main_arg2 : IVec S16384 32) (main_arg3 : FVec F S26x100001x16 .f32) (main_arg4 : FVec F S3x429x256 .f32) (main_arg5 : FVec F S3x256 .f32) (main_arg6 : FVec F S3x256x429 .f32) (main_arg7 : FVec F S3x429 .f32) (main_arg8 : FVec F S429x1 .f32) (main_arg9 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100001x16 .f32 := Host.absf main_arg3
  let main_cst_0 : FVec F S_ .f32 := constant S_ .f32 0x7F800000#32
  let main_v5 : FVec F S26x100001x16 .f32 := broadcastInDim S26x100001x16 ![] bcast_S_S26x100001x16 main_cst_0
  let main_v6 : IVec S26x100001x16 1 := cmpf .olt main_v4 main_v5
  let main_c_1 : IVec S_ 1 := constantI S_ 1 1#1
  let main_v7 : IVec S_ 1 := (fun x v => Host.reduce IntOp.andi x v reducesTo_S26x100001x16_S_d0_1_2 h_S_) main_v6 main_c_1
  let main_v8 : IVec S_ 1 := andi main_v3 main_v7
  let main_v9 : FVec F S3x429x256 .f32 := Host.absf main_arg4
  let main_cst_2 : FVec F S_ .f32 := constant S_ .f32 0x7F800000#32
  let main_v10 : FVec F S3x429x256 .f32 := broadcastInDim S3x429x256 ![] bcast_S_S3x429x256 main_cst_2
  let main_v11 : IVec S3x429x256 1 := cmpf .olt main_v9 main_v10
  let main_c_3 : IVec S_ 1 := constantI S_ 1 1#1
  let main_v12 : IVec S_ 1 := (fun x v => Host.reduce IntOp.andi x v reducesTo_S3x429x256_S_d0_1_2 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_arg7 main_arg8 main_arg9 main_v13 main_v16
-- ==== Kernel.lean ====
abbrev S16384x13 : Shape := ⟨2, ![16384, 13]⟩
abbrev S16384x26 : Shape := ⟨2, ![16384, 26]⟩
abbrev S16384 : Shape := ⟨1, ![16384]⟩
abbrev S26x100001x16 : Shape := ⟨3, ![26, 100001, 16]⟩
abbrev S3x429x256 : Shape := ⟨3, ![3, 429, 256]⟩
abbrev S3x256 : Shape := ⟨2, ![3, 256]⟩
abbrev S3x256x429 : Shape := ⟨3, ![3, 256, 429]⟩
abbrev S3x429 : Shape := ⟨2, ![3, 429]⟩
abbrev S429x1 : Shape := ⟨2, ![429, 1]⟩
abbrev S1 : Shape := ⟨1, ![1]⟩
abbrev S1x26x100001x16 : Shape := ⟨4, ![1, 26, 100001, 16]⟩
abbrev S26x16384 : Shape := ⟨2, ![26, 16384]⟩
abbrev S1x26x16384x1 : Shape := ⟨4, ![1, 26, 16384, 1]⟩
abbrev S_ : Shape := ⟨0, ![]⟩
abbrev S26x16384x1 : Shape := ⟨3, ![26, 16384, 1]⟩
abbrev S1x1x1 : Shape := ⟨3, ![1, 1, 1]⟩
abbrev S1x26x16384x16 : Shape := ⟨4, ![1, 26, 16384, 16]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S1024x429 : Shape := ⟨2, ![1024, 429]⟩
abbrev S1x429x256 : Shape := ⟨3, ![1, 429, 256]⟩
abbrev S429x256 : Shape := ⟨2, ![429, 256]⟩
abbrev S1x256 : Shape := ⟨2, ![1, 256]⟩
abbrev S256 : Shape := ⟨1, ![256]⟩
abbrev S1x256x429 : Shape := ⟨3, ![1, 256, 429]⟩
abbrev S256x429 : Shape := ⟨2, ![256, 429]⟩
abbrev S1x429 : Shape := ⟨2, ![1, 429]⟩
abbrev S429 : Shape := ⟨1, ![429]⟩
abbrev S1024x256 : Shape := ⟨2, ![1024, 256]⟩
abbrev S16384x1 : Shape := ⟨2, ![16384, 1]⟩
abbrev S1x1 : Shape := ⟨2, ![1, 1]⟩

abbrev nBuf : Space → Nat
  | .hbm => 53
  | .vmem => 8
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S16384, .i32⟩
  | .hbm, ⟨3, _⟩ => ⟨S26x100001x16, .f32⟩
  | .hbm, ⟨4, _⟩ => ⟨S3x429x256, .f32⟩
  | .hbm, ⟨5, _⟩ => ⟨S3x256, .f32⟩
  | .hbm, ⟨6, _⟩ => ⟨S3x256x429, .f32⟩
  | .hbm, ⟨7, _⟩ => ⟨S3x429, .f32⟩
  | .hbm, ⟨8, _⟩ => ⟨S429x1, .f32⟩
  | .hbm, ⟨9, _⟩ => ⟨S1, .f32⟩
  | .hbm, ⟨10, _⟩ => ⟨S1x26x100001x16, .f32⟩
  | .hbm, ⟨11, _⟩ => ⟨S26x16384, .i32⟩
  | .hbm, ⟨12, _⟩ => ⟨S1x26x16384x1, .i32⟩
  | .hbm, ⟨13, _⟩ => ⟨S_, .i32⟩
  | .hbm, ⟨14, _⟩ => ⟨S1x26x16384x1, .i32⟩
  | .hbm, ⟨15, _⟩ => ⟨S1x26x16384x1, .i1⟩
  | .hbm, ⟨16, _⟩ => ⟨S_, .i32⟩
  | .hbm, ⟨17, _⟩ => ⟨S1x26x16384x1, .i32⟩
  | .hbm, ⟨18, _⟩ => ⟨S1x26x16384x1, .i32⟩
  | .hbm, ⟨19, _⟩ => ⟨S1x26x16384x1, .i32⟩
  | .hbm, ⟨20, _⟩ => ⟨S26x16384x1, .i32⟩
  | .hbm, ⟨21, _⟩ => ⟨S1, .i32⟩
  | .hbm, ⟨22, _⟩ => ⟨S_, .i32⟩
  | .hbm, ⟨23, _⟩ => ⟨S26x16384x1, .i32⟩
  | .hbm, ⟨24, _⟩ => ⟨S26x16384x1, .i1⟩
  | .hbm, ⟨25, _⟩ => ⟨S1x1x1, .i32⟩
  | .hbm, ⟨26, _⟩ => ⟨S26x16384x1, .i32⟩
  | .hbm, ⟨27, _⟩ => ⟨S26x16384x1, .i1⟩
  | .hbm, ⟨28, _⟩ => ⟨S26x16384x1, .i1⟩
  | .hbm, ⟨29, _⟩ => ⟨S_, .i1⟩
  | .hbm, ⟨30, _⟩ => ⟨S26x16384, .i1⟩
  | .hbm, ⟨31, _⟩ => ⟨S1x26x16384x16, .f32⟩
  | .hbm, ⟨32, _⟩ => ⟨S1x26x16384x16, .i1⟩
  | .hbm, ⟨33, _⟩ => ⟨S_, .f32⟩
  | .hbm, ⟨34, _⟩ => ⟨S1x26x16384x16, .f32⟩
  | .hbm, ⟨35, _⟩ => ⟨S1x26x16384x16, .f32⟩
  | .hbm, ⟨36, _⟩ => ⟨S26x16384x16, .f32⟩
  | .hbm, ⟨37, _⟩ => ⟨S16384x26x16, .f32⟩
  | .hbm, ⟨38, _⟩ => ⟨S16384x416, .f32⟩
  | .hbm, ⟨39, _⟩ => ⟨S16384x429, .f32⟩
  | .hbm, ⟨40, _⟩ => ⟨S16384x429, .f32⟩
  | .hbm, ⟨41, _⟩ => ⟨S16384x1, .f32⟩
  | .hbm, ⟨42, _⟩ => ⟨S1x1, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .local _ .vmem, ⟨0, _⟩ => ⟨S1024x429, .f32⟩
  | .local _ .vmem, ⟨1, _⟩ => ⟨S1024x429, .f32⟩
  | .local _ .vmem, ⟨2, _⟩ => ⟨S3x429x256, .f32⟩
  | .local _ .vmem, ⟨3, _⟩ => ⟨S3x256, .f32⟩
  | .local _ .vmem, ⟨4, _⟩ => ⟨S3x256x429, .f32⟩
  | .local _ .vmem, ⟨5, _⟩ => ⟨S3x429, .f32⟩
  | .local _ .vmem, ⟨6, _⟩ => ⟨S1024x429, .f32⟩
  | .local _ .vmem, ⟨7, _⟩ => ⟨S1024x429, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_cst_0 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x429 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x429x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x429 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x429 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x429 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S26x100001x16_S1x26x100001x16_1_2_3 : S26x100001x16.BroadcastsInDim S1x26x100001x16 (![1, 2, 3] : Fin 3 → Fin S1x26x100001x16.rank)
  transposes_S16384x26_S26x16384_1_0 : S16384x26.Transposes [1, 0] S26x16384
  bcast_S26x16384_S1x26x16384x1_1_2 : S26x16384.BroadcastsInDim S1x26x16384x1 (![1, 2] : Fin 2 → Fin S1x26x16384x1.rank)
  bcast_S_S1x26x16384x1 : S_.BroadcastsInDim S1x26x16384x1 (![] : Fin 0 → Fin S1x26x16384x1.rank)
  shapeCasts_S1x26x16384x1_S26x16384x1 : S1x26x16384x1.ShapeCasts S26x16384x1
  bcast_S_S26x16384x1 : S_.BroadcastsInDim S26x16384x1 (![] : Fin 0 → Fin S26x16384x1.rank)
  bcast_S1_S1x1x1_2 : S1.BroadcastsInDim S1x1x1 (![2] : Fin 1 → Fin S1x1x1.rank)
  bcast_S1x1x1_S26x16384x1_0_1_2 : S1x1x1.BroadcastsInDim S26x16384x1 (![0, 1, 2] : Fin 3 → Fin S26x16384x1.rank)
  reducesTo_S26x16384x1_S26x16384_d2 : S26x16384x1.ReducesTo [2] S26x16384
  h_S_ : 0 < S_.numel
  bcast_S26x16384_S1x26x16384x16_1_2 : S26x16384.BroadcastsInDim S1x26x16384x16 (![1, 2] : Fin 2 → Fin S1x26x16384x16.rank)
  bcast_S_S1x26x16384x16 : S_.BroadcastsInDim S1x26x16384x16 (![] : Fin 0 → Fin S1x26x16384x16.rank)
  shapeCasts_S1x26x16384x16_S26x16384x16 : S1x26x16384x16.ShapeCasts S26x16384x16
  transposes_S26x16384x16_S16384x26x16_1_0_2 : S26x16384x16.Transposes [1, 0, 2] S16384x26x16
  shapeCasts_S16384x26x16_S16384x416 : S16384x26x16.ShapeCasts S16384x416
  concatenates_S16384x416_S16384x13_S16384x429_d1 : Shape.Concatenates [S16384x416, S16384x13] S16384x429 1
  inb_S1024x429_S1024x429_0_0 : ∀ a, (![0, 0] : Fin 2 → Nat) a + S1024x429.size a ≤ S1024x429.size a
  h_S1024x429 : 0 < S1024x429.numel
  shapeCasts_S1024x429_S1024x429 : S1024x429.ShapeCasts S1024x429
  inb_S3x429x256_S1x429x256_0_0_0 : ∀ a, (![0, 0, 0] : Fin 3 → Nat) a + S1x429x256.size a ≤ S3x429x256.size a
  h_S1x429x256 : 0 < S1x429x256.numel
  shapeCasts_S1x429x256_S429x256 : S1x429x256.ShapeCasts S429x256
  bitsLt_bf16_f32 : FTy.bits .bf16 < FTy.bits .f32
  inb_S3x256_S1x256_0_0 : ∀ a, (![0, 0] : Fin 2 → Nat) a + S1x256.size a ≤ S3x256.size a
  h_S1x256 : 0 < S1x256.numel
  shapeCasts_S1x256_S256 : S1x256.ShapeCasts S256
  inb_S3x256x429_S1x256x429_0_0_0 : ∀ a, (![0, 0, 0] : Fin 3 → Nat) a + S1x256x429.size a ≤ S3x256x429.size a
  h_S1x256x429 : 0 < S1x256x429.numel
  shapeCasts_S1x256x429_S256x429 : S1x256x429.ShapeCasts S256x429
  inb_S3x429_S1x429_0_0 : ∀ a, (![0, 0] : Fin 2 → Nat) a + S1x429.size a ≤ S3x429.size a
  h_S1x429 : 0 < S1x429.numel
  shapeCasts_S1x429_S429 : S1x429.ShapeCasts S429
  shapeCasts_S256_S1x256 : S256.ShapeCasts S1x256
  broadcasts_S1x256_S1024x256 : S1x256.Broadcasts S1024x256
  shapeCasts_S429_S1x429 : S429.ShapeCasts S1x429
  broadcasts_S1x429_S1024x429 : S1x429.Broadcasts S1024x429
  inb_S3x429x256_S1x429x256_1_0_0 : ∀ a, (![1, 0, 0] : Fin 3 → Nat) a + S1x429x256.size a ≤ S3x429x256.size a
  inb_S3x256_S1x256_1_0 : ∀ a, (![1, 0] : Fin 2 → Nat) a + S1x256.size a ≤ S3x256.size a
  inb_S3x256x429_S1x256x429_1_0_0 : ∀ a, (![1, 0, 0] : Fin 3 → Nat) a + S1x256x429.size a ≤ S3x256x429.size a
  inb_S3x429_S1x429_1_0 : ∀ a, (![1, 0] : Fin 2 → Nat) a + S1x429.size a ≤ S3x429.size a
  inb_S3x429x256_S1x429x256_2_0_0 : ∀ a, (![2, 0, 0] : Fin 3 → Nat) a + S1x429x256.size a ≤ S3x429x256.size a
  inb_S3x256_S1x256_2_0 : ∀ a, (![2, 0] : Fin 2 → Nat) a + S1x256.size a ≤ S3x256.size a
  inb_S3x256x429_S1x256x429_2_0_0 : ∀ a, (![2, 0, 0] : Fin 3 → Nat) a + S1x256x429.size a ≤ S3x256x429.size a
  inb_S3x429_S1x429_2_0 : ∀ a, (![2, 0] : Fin 2 → Nat) a + S1x429.size a ≤ S3x429.size a
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S1x26x100001x16_S26x16384x1_S1x26x16384x16_03_2_1_0_2_2_11116_wf : GatherDims.WF S1x26x100001x16 S26x16384x1 S1x26x16384x16 [0, 3] [2] [1] [2] [0] 2 ![1, 1, 1, 16]
  dot_S1024x429_S429x256_S1024x256_1_0_0_1_n_n_wf : DotDims.WF S1024x429 S429x256 S1024x256 [1] [0] [0] [1] [] []
  dot_S1024x256_S256x429_S1024x429_1_0_0_1_n_n_wf : DotDims.WF S1024x256 S256x429 S1024x429 [1] [0] [0] [1] [] []
  dot_S16384x429_S429x1_S16384x1_1_0_0_1_n_n_wf : DotDims.WF S16384x429 S429x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x429.size a ≤ S16384x429.size a
  hwx0_0 : ∀ i : grid0.Coords, EltTy.bits .f32 = 32 ∨ (Rect.block (s := S16384x429) S1024x429.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x429x256.size a ≤ S3x429x256.size a
  hwx0_1 : ∀ i : grid0.Coords, EltTy.bits .f32 = 32 ∨ (Rect.block (s := S3x429x256) S3x429x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x429.size a ≤ S3x256x429.size a
  hwx0_3 : ∀ i : grid0.Coords, EltTy.bits .f32 = 32 ∨ (Rect.block (s := S3x256x429) S3x256x429.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x429.size a ≤ S3x429.size a
  hwx0_4 : ∀ i : grid0.Coords, EltTy.bits .f32 = 32 ∨ (Rect.block (s := S3x429) S3x429.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x429.size a ≤ S16384x429.size a
  hwx0_5 : ∀ i : grid0.Coords, EltTy.bits .f32 = 32 ∨ (Rect.block (s := S16384x429) S1024x429.size (cc0_transform_5 i) (hinb0_5 i)).WholeWords (EltTy.packing .f32)

variable [Facts₀]

def gather_S1x26x100001x16_S26x16384x1_S1x26x16384x16_03_2_1_0_2_2_11116 : GatherDims S1x26x100001x16 S26x16384x1 S1x26x16384x16 where
  offsetDims := [0, 3]
  collapsedSliceDims := [2]
  operandBatchingDims := [1]
  startIndicesBatchingDims := [0]
  startIndexMap := [2]
  indexVectorDim := 2
  sliceSizes := ![1, 1, 1, 16]
  wf := gather_S1x26x100001x16_S26x16384x1_S1x26x16384x16_03_2_1_0_2_2_11116_wf
def dot_S1024x429_S429x256_S1024x256_1_0_0_1_n_n : DotDims S1024x429 S429x256 S1024x256 where
  lhsContracting := [1]
  rhsContracting := [0]
  lhsNonContracting := [0]
  rhsNonContracting := [1]
  lhsBatch := []
  rhsBatch := []
  wf := dot_S1024x429_S429x256_S1024x256_1_0_0_1_n_n_wf
def dot_S1024x256_S256x429_S1024x429_1_0_0_1_n_n : DotDims S1024x256 S256x429 S1024x429 where
  lhsContracting := [1]
  rhsContracting := [0]
  lhsNonContracting := [0]
  rhsNonContracting := [1]
  lhsBatch := []
  rhsBatch := []
  wf := dot_S1024x256_S256x429_S1024x429_1_0_0_1_n_n_wf
def dot_S16384x429_S429x1_S16384x1_1_0_0_1_n_n : DotDims S16384x429 S429x1 S16384x1 where
  lhsContracting := [1]
  rhsContracting := [0]
  lhsNonContracting := [0]
  rhsNonContracting := [1]
  lhsBatch := []
  rhsBatch := []
  wf := dot_S16384x429_S429x1_S16384x1_1_0_0_1_n_n_wf

abbrev win0_0 : Pipeline.Window sig grid0 :=
  Pipeline.Window.ofSpec (Memref.whole main_v7) S1024x429.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x429x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S3x256x429.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3x429.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x429.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S16384 : Shape := ⟨1, ![16384]⟩
abbrev S26x100001x16 : Shape := ⟨3, ![26, 100001, 16]⟩
abbrev S3x429x256 : Shape := ⟨3, ![3, 429, 256]⟩
abbrev S3x256 : Shape := ⟨2, ![3, 256]⟩
abbrev S3x256x429 : Shape := ⟨3, ![3, 256, 429]⟩
abbrev S3x429 : Shape := ⟨2, ![3, 429]⟩
abbrev S429x1 : Shape := ⟨2, ![429, 1]⟩
abbrev S1 : Shape := ⟨1, ![1]⟩
abbrev S1x26x100001x16 : Shape := ⟨4, ![1, 26, 100001, 16]⟩
abbrev S26x16384 : Shape := ⟨2, ![26, 16384]⟩
abbrev S1x26x16384x1 : Shape := ⟨4, ![1, 26, 16384, 1]⟩
abbrev S_ : Shape := ⟨0, ![]⟩
abbrev S26x16384x1 : Shape := ⟨3, ![26, 16384, 1]⟩
abbrev S1x1x1 : Shape := ⟨3, ![1, 1, 1]⟩
abbrev S1x26x16384x16 : Shape := ⟨4, ![1, 26, 16384, 16]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S1x429x256 : Shape := ⟨3, ![1, 429, 256]⟩
abbrev S429x256 : Shape := ⟨2, ![429, 256]⟩
abbrev S16384x256 : Shape := ⟨2, ![16384, 256]⟩
abbrev S1x256 : Shape := ⟨2, ![1, 256]⟩
abbrev S256 : Shape := ⟨1, ![256]⟩
abbrev S1x256x429 : Shape := ⟨3, ![1, 256, 429]⟩
abbrev S256x429 : Shape := ⟨2, ![256, 429]⟩
abbrev S1x429 : Shape := ⟨2, ![1, 429]⟩
abbrev S429 : Shape := ⟨1, ![429]⟩
abbrev S16384x1 : Shape := ⟨2, ![16384, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S16384, .i32⟩
  | .hbm, ⟨3, _⟩ => ⟨S26x100001x16, .f32⟩
  | .hbm, ⟨4, _⟩ => ⟨S3x429x256, .f32⟩
  | .hbm, ⟨5, _⟩ => ⟨S3x256, .f32⟩
  | .hbm, ⟨6, _⟩ => ⟨S3x256x429, .f32⟩
  | .hbm, ⟨7, _⟩ => ⟨S3x429, .f32⟩
  | .hbm, ⟨8, _⟩ => ⟨S429x1, .f32⟩
  | .hbm, ⟨9, _⟩ => ⟨S1, .f32⟩
  | .hbm, ⟨10, _⟩ => ⟨S1x26x100001x16, .f32⟩
  | .hbm, ⟨11, _⟩ => ⟨S26x16384, .i32⟩
  | .hbm, ⟨12, _⟩ => ⟨S1x26x16384x1, .i32⟩
  | .hbm, ⟨13, _⟩ => ⟨S_, .i32⟩
  | .hbm, ⟨14, _⟩ => ⟨S1x26x16384x1, .i32⟩
  | .hbm, ⟨15, _⟩ => ⟨S1x26x16384x1, .i1⟩
  | .hbm, ⟨16, _⟩ => ⟨S_, .i32⟩
  | .hbm, ⟨17, _⟩ => ⟨S1x26x16384x1, .i32⟩
  | .hbm, ⟨18, _⟩ => ⟨S1x26x16384x1, .i32⟩
  | .hbm, ⟨19, _⟩ => ⟨S1x26x16384x1, .i32⟩
  | .hbm, ⟨20, _⟩ => ⟨S26x16384x1, .i32⟩
  | .hbm, ⟨21, _⟩ => ⟨S1, .i32⟩
  | .hbm, ⟨22, _⟩ => ⟨S_, .i32⟩
  | .hbm, ⟨23, _⟩ => ⟨S26x16384x1, .i32⟩
  | .hbm, ⟨24, _⟩ => ⟨S26x16384x1, .i1⟩
  | .hbm, ⟨25, _⟩ => ⟨S1x1x1, .i32⟩
  | .hbm, ⟨26, _⟩ => ⟨S26x16384x1, .i32⟩
  | .hbm, ⟨27, _⟩ => ⟨S26x16384x1, .i1⟩
  | .hbm, ⟨28, _⟩ => ⟨S26x16384x1, .i1⟩
  | .hbm, ⟨29, _⟩ => ⟨S_, .i1⟩
  | .hbm, ⟨30, _⟩ => ⟨S26x16384, .i1⟩
  | .hbm, ⟨31, _⟩ => ⟨S1x26x16384x16, .f32⟩
  | .hbm, ⟨32, _⟩ => ⟨S1x26x16384x16, .i1⟩
  | .hbm, ⟨33, _⟩ => ⟨S_, .f32⟩
  | .hbm, ⟨34, _⟩ => ⟨S1x26x16384x16, .f32⟩
  | .hbm, ⟨35, _⟩ => ⟨S1x26x16384x16, .f32⟩
  | .hbm, ⟨36, _⟩ => ⟨S26x16384x16, .f32⟩
  | .hbm, ⟨37, _⟩ => ⟨S16384x26x16, .f32⟩
  | .hbm, ⟨38, _⟩ => ⟨S16384x416, .f32⟩
  | .hbm, ⟨39, _⟩ => ⟨S16384x429, .f32⟩
  | .hbm, ⟨40, _⟩ => ⟨S1x429x256, .f32⟩
  | .hbm, ⟨41, _⟩ => ⟨S429x256, .f32⟩
  | .hbm, ⟨42, _⟩ => ⟨S16384x256, .f32⟩
  | .hbm, ⟨43, _⟩ => ⟨S1x256, .f32⟩
  | .hbm, ⟨44, _⟩ => ⟨S256, .f32⟩
  | .hbm, ⟨45, _⟩ => ⟨S1x256, .f32⟩
  | .hbm, ⟨46, _⟩ => ⟨S16384x256, .f32⟩
  | .hbm, ⟨47, _⟩ => ⟨S16384x256, .f32⟩
  | .hbm, ⟨48, _⟩ => ⟨S1x256x429, .f32⟩
  | .hbm, ⟨49, _⟩ => ⟨S256x429, .f32⟩
  | .hbm, ⟨50, _⟩ => ⟨S16384x429, .f32⟩
  | .hbm, ⟨51, _⟩ => ⟨S1x429, .f32⟩
  | .hbm, ⟨52, _⟩ => ⟨S429, .f32⟩
  | .hbm, ⟨53, _⟩ => ⟨S1x429, .f32⟩
  | .hbm, ⟨54, _⟩ => ⟨S16384x429, .f32⟩
  | .hbm, ⟨55, _⟩ => ⟨S16384x429, .f32⟩
  | .hbm, ⟨56, _⟩ => ⟨S16384x429, .f32⟩
  | .hbm, ⟨57, _⟩ => ⟨S_, .f32⟩
  | .hbm, ⟨58, _⟩ => ⟨S16384x429, .f32⟩
  | .hbm, ⟨59, _⟩ => ⟨S16384x429, .f32⟩
  | .hbm, ⟨60, _⟩ => ⟨S1x429x256, .f32⟩
  | .hbm, ⟨61, _⟩ => ⟨S429x256, .f32⟩
  | .hbm, ⟨62, _⟩ => ⟨S16384x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S16384x256, .f32⟩
  | .hbm, ⟨67, _⟩ => ⟨S16384x256, .f32⟩
  | .hbm, ⟨68, _⟩ => ⟨S1x256x429, .f32⟩
  | .hbm, ⟨69, _⟩ => ⟨S256x429, .f32⟩
  | .hbm, ⟨70, _⟩ => ⟨S16384x429, .f32⟩
  | .hbm, ⟨71, _⟩ => ⟨S1x429, .f32⟩
  | .hbm, ⟨72, _⟩ => ⟨S429, .f32⟩
  | .hbm, ⟨73, _⟩ => ⟨S1x429, .f32⟩
  | .hbm, ⟨74, _⟩ => ⟨S16384x429, .f32⟩
  | .hbm, ⟨75, _⟩ => ⟨S16384x429, .f32⟩
  | .hbm, ⟨76, _⟩ => ⟨S16384x429, .f32⟩
  | .hbm, ⟨77, _⟩ => ⟨S_, .f32⟩
  | .hbm, ⟨78, _⟩ => ⟨S16384x429, .f32⟩
  | .hbm, ⟨79, _⟩ => ⟨S16384x429, .f32⟩
  | .hbm, ⟨80, _⟩ => ⟨S1x429x256, .f32⟩
  | .hbm, ⟨81, _⟩ => ⟨S429x256, .f32⟩
  | .hbm, ⟨82, _⟩ => ⟨S16384x256, .f32⟩
  | .hbm, ⟨83, _⟩ => ⟨S1x256, .f32⟩
  | .hbm, ⟨84, _⟩ => ⟨S256, .f32⟩
  | .hbm, ⟨85, _⟩ => ⟨S1x256, .f32⟩
  | .hbm, ⟨86, _⟩ => ⟨S16384x256, .f32⟩
  | .hbm, ⟨87, _⟩ => ⟨S16384x256, .f32⟩
  | .hbm, ⟨88, _⟩ => ⟨S1x256x429, .f32⟩
  | .hbm, ⟨89, _⟩ => ⟨S256x429, .f32⟩
  | .hbm, ⟨90, _⟩ => ⟨S16384x429, .f32⟩
  | .hbm, ⟨91, _⟩ => ⟨S1x429, .f32⟩
  | .hbm, ⟨92, _⟩ => ⟨S429, .f32⟩
  | .hbm, ⟨93, _⟩ => ⟨S1x429, .f32⟩
  | .hbm, ⟨94, _⟩ => ⟨S16384x429, .f32⟩
  | .hbm, ⟨95, _⟩ => ⟨S16384x429, .f32⟩
  | .hbm, ⟨96, _⟩ => ⟨S16384x429, .f32⟩
  | .hbm, ⟨97, _⟩ => ⟨S_, .f32⟩
  | .hbm, ⟨98, _⟩ => ⟨S16384x429, .f32⟩
  | .hbm, ⟨99, _⟩ => ⟨S16384x429, .f32⟩
  | .hbm, ⟨100, _⟩ => ⟨S16384x1, .f32⟩
  | .hbm, ⟨101, _⟩ => ⟨S1x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call1_cst : Ref sig .tc := ⟨.hbm, 57, rfl⟩
abbrev main_call1_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call2_cst : Ref sig .tc := ⟨.hbm, 77, rfl⟩
abbrev main_call2_v0 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call3_cst : Ref sig .tc := ⟨.hbm, 97, rfl⟩
abbrev main_call3_v0 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst : Ref sig .tc := ⟨.hbm, 106, rfl⟩
abbrev main_v68 : Ref sig .tc := ⟨.hbm, 107, rfl⟩
abbrev main_v69 : Ref sig .tc := ⟨.hbm, 108, rfl⟩
abbrev main_cst_0 : Ref sig .tc := ⟨.hbm, 109, rfl⟩
abbrev main_v70 : Ref sig .tc := ⟨.hbm, 110, rfl⟩
abbrev main_v71 : Ref sig .tc := ⟨.hbm, 111, rfl⟩

abbrev nD : Nat := 1
abbrev τ : Topo := Topo.v7x

variable {F : FTy → Type} [FloatOps F]

class Facts₀ : Prop where
  bcast_S26x100001x16_S1x26x100001x16_1_2_3 : S26x100001x16.BroadcastsInDim S1x26x100001x16 (![1, 2, 3] : Fin 3 → Fin S1x26x100001x16.rank)
  transposes_S16384x26_S26x16384_1_0 : S16384x26.Transposes [1, 0] S26x16384
  bcast_S26x16384_S1x26x16384x1_1_2 : S26x16384.BroadcastsInDim S1x26x16384x1 (![1, 2] : Fin 2 → Fin S1x26x16384x1.rank)
  bcast_S_S1x26x16384x1 : S_.BroadcastsInDim S1x26x16384x1 (![] : Fin 0 → Fin S1x26x16384x1.rank)
  shapeCasts_S1x26x16384x1_S26x16384x1 : S1x26x16384x1.ShapeCasts S26x16384x1
  bcast_S_S26x16384x1 : S_.BroadcastsInDim S26x16384x1 (![] : Fin 0 → Fin S26x16384x1.rank)
  bcast_S1_S1x1x1_2 : S1.BroadcastsInDim S1x1x1 (![2] : Fin 1 → Fin S1x1x1.rank)
  bcast_S1x1x1_S26x16384x1_0_1_2 : S1x1x1.BroadcastsInDim S26x16384x1 (![0, 1, 2] : Fin 3 → Fin S26x16384x1.rank)
  reducesTo_S26x16384x1_S26x16384_d2 : S26x16384x1.ReducesTo [2] S26x16384
  h_S_ : 0 < S_.numel
  bcast_S26x16384_S1x26x16384x16_1_2 : S26x16384.BroadcastsInDim S1x26x16384x16 (![1, 2] : Fin 2 → Fin S1x26x16384x16.rank)
  bcast_S_S1x26x16384x16 : S_.BroadcastsInDim S1x26x16384x16 (![] : Fin 0 → Fin S1x26x16384x16.rank)
  shapeCasts_S1x26x16384x16_S26x16384x16 : S1x26x16384x16.ShapeCasts S26x16384x16
  transposes_S26x16384x16_S16384x26x16_1_0_2 : S26x16384x16.Transposes [1, 0, 2] S16384x26x16
  shapeCasts_S16384x26x16_S16384x416 : S16384x26x16.ShapeCasts S16384x416
  concatenates_S16384x416_S16384x13_S16384x429_d1 : Shape.Concatenates [S16384x416, S16384x13] S16384x429 1
  slices_S3x429x256_S1x429x256_0_0_0 : S3x429x256.Slices ![0, 0, 0] S1x429x256
  shapeCasts_S1x429x256_S429x256 : S1x429x256.ShapeCasts S429x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  slices_S3x256x429_S1x256x429_0_0_0 : S3x256x429.Slices ![0, 0, 0] S1x256x429
  shapeCasts_S1x256x429_S256x429 : S1x256x429.ShapeCasts S256x429
  slices_S3x429_S1x429_0_0 : S3x429.Slices ![0, 0] S1x429
  shapeCasts_S1x429_S429 : S1x429.ShapeCasts S429
  bcast_S429_S1x429_1 : S429.BroadcastsInDim S1x429 (![1] : Fin 1 → Fin S1x429.rank)
  bcast_S1x429_S16384x429_0_1 : S1x429.BroadcastsInDim S16384x429 (![0, 1] : Fin 2 → Fin S16384x429.rank)
  bcast_S_S16384x429 : S_.BroadcastsInDim S16384x429 (![] : Fin 0 → Fin S16384x429.rank)
  slices_S3x429x256_S1x429x256_1_0_0 : S3x429x256.Slices ![1, 0, 0] S1x429x256
  slices_S3x256_S1x256_1_0 : S3x256.Slices ![1, 0] S1x256
  slices_S3x256x429_S1x256x429_1_0_0 : S3x256x429.Slices ![1, 0, 0] S1x256x429
  slices_S3x429_S1x429_1_0 : S3x429.Slices ![1, 0] S1x429
  slices_S3x429x256_S1x429x256_2_0_0 : S3x429x256.Slices ![2, 0, 0] S1x429x256
  slices_S3x256_S1x256_2_0 : S3x256.Slices ![2, 0] S1x256
  slices_S3x256x429_S1x256x429_2_0_0 : S3x256x429.Slices ![2, 0, 0] S1x256x429
  slices_S3x429_S1x429_2_0 : S3x429.Slices ![2, 0] S1x429
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S1x26x100001x16_S26x16384x1_S1x26x16384x16_03_2_1_0_2_2_11116_wf : GatherDims.WF S1x26x100001x16 S26x16384x1 S1x26x16384x16 [0, 3] [2] [1] [2] [0] 2 ![1, 1, 1, 16]
  dot_S16384x429_S429x256_S16384x256_1_0_0_1_n_n_wf : DotDims.WF S16384x429 S429x256 S16384x256 [1] [0] [0] [1] [] []
  dot_S16384x256_S256x429_S16384x429_1_0_0_1_n_n_wf : DotDims.WF S16384x256 S256x429 S16384x429 [1] [0] [0] [1] [] []
  dot_S16384x429_S429x1_S16384x1_1_0_0_1_n_n_wf : DotDims.WF S16384x429 S429x1 S16384x1 [1] [0] [0] [1] [] []

variable [Facts₀]

def gather_S1x26x100001x16_S26x16384x1_S1x26x16384x16_03_2_1_0_2_2_11116 : GatherDims S1x26x100001x16 S26x16384x1 S1x26x16384x16 where
  offsetDims := [0, 3]
  collapsedSliceDims := [2]
  operandBatchingDims := [1]
  startIndicesBatchingDims := [0]
  startIndexMap := [2]
  indexVectorDim := 2
  sliceSizes := ![1, 1, 1, 16]
  wf := gather_S1x26x100001x16_S26x16384x1_S1x26x16384x16_03_2_1_0_2_2_11116_wf
def dot_S16384x429_S429x256_S16384x256_1_0_0_1_n_n : DotDims S16384x429 S429x256 S16384x256 where
  lhsContracting := [1]
  rhsContracting := [0]
  lhsNonContracting := [0]
  rhsNonContracting := [1]
  lhsBatch := []
  rhsBatch := []
  wf := dot_S16384x429_S429x256_S16384x256_1_0_0_1_n_n_wf
def dot_S16384x256_S256x429_S16384x429_1_0_0_1_n_n : DotDims S16384x256 S256x429 S16384x429 where
  lhsContracting := [1]
  rhsContracting := [0]
  lhsNonContracting := [0]
  rhsNonContracting := [1]
  lhsBatch := []
  rhsBatch := []
  wf := dot_S16384x256_S256x429_S16384x429_1_0_0_1_n_n_wf
def dot_S16384x429_S429x1_S16384x1_1_0_0_1_n_n : DotDims S16384x429 S429x1 S16384x1 where
  lhsContracting := [1]
  rhsContracting := [0]
  lhsNonContracting := [0]
  rhsNonContracting := [1]
  lhsBatch := []
  rhsBatch := []
  wf := dot_S16384x429_S429x1_S16384x1_1_0_0_1_n_n_wf

class Facts : Prop extends Facts₀ where

variable [Facts]
-- ==== Proof.MlpSpec.lean ====
/-
  The function both programs compute on the stacked feature array, stated once and with no program in sight.

  A row x of 429 features passes through three residual blocks.  Block l has weights W1 (429 x 256), b1 (256),
  W2 (256 x 429), b2 (429) and maps x to

      c  |->  max ( ( sum_k ( sum_j x_j * W1_jk  +  b1_k ) * W2_kc  +  b2_c )  +  x_c ,  0 )

  on the extended reals.  The three blocks' parameters are slices l = 0, 1, 2 of the stacked arrays.  Every row of
  the array is treated alike and independently of the others, so the whole-array function is the row function
  applied row by row, whatever the number of rows: this is what lets a tile of 1024 rows and the whole array of
  16384 rows be compared.
-/
import Idealize.ShloMosaic.PureOps.Ideal
import Idealize.ShloMosaic.Lib.ValueIdx

noncomputable section

namespace Cert.Mlp

open Idealize.ShloMosaic Idealize.ShloMosaic.ValueIdx

/-- One residual block on one row: two affine maps, the input added back, then the positive part.  The zero of
    the positive part is kept as the float word both programs print. -/
def layerRow {n h : Nat} (x : Fin n → EReal) (W1 : Fin n → Fin h → EReal) (b1 : Fin h → EReal)
    (W2 : Fin h → Fin n → EReal) (b2 : Fin n → EReal) (q : Fin n) : EReal :=
  max (((∑ k : Fin h, ((∑ j : Fin n, x j * W1 j k) + b1 k) * W2 k q) + b2 q) + x q) (Ideal.ofBits .f32 0x00000000#32)

/-- The stacked parameters of the three blocks. -/
abbrev W1s := (⟨3, ![3, 429, 256]⟩ : Shape).Idx → EReal
abbrev B1s := (⟨2, ![3, 256]⟩ : Shape).Idx → EReal
abbrev W2s := (⟨3, ![3, 256, 429]⟩ : Shape).Idx → EReal
abbrev B2s := (⟨2, ![3, 429]⟩ : Shape).Idx → EReal

/-- Block `l` of the stack, on a row. -/
def block (l : Fin 3) (w1s : W1s) (b1s : B1s) (w2s : W2s) (b2s : B2s) (x : Fin 429 → EReal) : Fin 429 → EReal :=
  layerRow x (fun j k => w1s (ix3 l j k)) (fun k => b1s (ix2 l k)) (fun k q => w2s (ix3 l k q)) (fun q => b2s (ix2 l q))

/-- The three blocks in order, on a row. -/
def mlpRow (w1s : W1s) (b1s : B1s) (w2s : W2s) (b2s : B2s) (x : Fin 429 → EReal) : Fin 429 → EReal :=
  block 2 w1s b1s w2s b2s (block 1 w1s b1s w2s b2s (block 0 w1s b1s w2s b2s x))

/-- A row function applied to every row of an array of `R` rows. -/
def rowwise {R : Nat} (f : (Fin 429 → EReal) → Fin 429 → EReal) (X : (⟨2, ![R, 429]⟩ : Shape).Idx → EReal) :
    (⟨2, ![R, 429]⟩ : Shape).Idx → EReal :=
  fun i => f (fun j => X (ix2 (n0 := R) (n1 := 429) (i 0) j)) (i 1)

theorem rowwise_apply {R : Nat} (f : (Fin 429 → EReal) → Fin 429 → EReal) (X : (⟨2, ![R, 429]⟩ : Shape).Idx → EReal)
    (p : Fin R) (q : Fin 429) : rowwise f X (ix2 p q) = f (fun j => X (ix2 p j)) q := rfl

/-- Row by row, one function after another is their composite. -/
theorem rowwise_rowwise {R : Nat} (f g : (Fin 429 → EReal) → Fin 429 → EReal) (X : (⟨2, ![R, 429]⟩ : Shape).Idx → EReal) :
    rowwise f (rowwise g X) = rowwise (fun x => f (g x)) X := by
  funext i
  obtain ⟨p, q, rfl⟩ : ∃ (p : Fin R) (q : Fin 429), i = ix2 p q := ⟨i 0, i 1, eq_ix2 i⟩
  rw [rowwise_apply, rowwise_apply]
  refine congrArg (fun y => f y q) (funext fun j => ?_)
  rw [rowwise_apply]

/-- The whole array through the three blocks, row by row. -/
def mlpArr {R : Nat} (w1s : W1s) (b1s : B1s) (w2s : W2s) (b2s : B2s) (X : (⟨2, ![R, 429]⟩ : Shape).Idx → EReal) :
    (⟨2, ![R, 429]⟩ : Shape).Idx → EReal :=
  rowwise (mlpRow w1s b1s w2s b2s) X

/-- The three blocks one array at a time are the three blocks row by row. -/
theorem mlpArr_eq {R : Nat} (w1s : W1s) (b1s : B1s) (w2s : W2s) (b2s : B2s) (X : (⟨2, ![R, 429]⟩ : Shape).Idx → EReal) :
    rowwise (block 2 w1s b1s w2s b2s) (rowwise (block 1 w1s b1s w2s b2s) (rowwise (block 0 w1s b1s w2s b2s) X))
      = mlpArr w1s b1s w2s b2s X := by
  rw [rowwise_rowwise, rowwise_rowwise]; rfl

end Cert.Mlp

end
-- ==== Proof.KernelLayer.lean ====
/-
  The kernel body's arithmetic, read at an index.

  The body applies the same residual block three times to its tile of 1024 rows: the tile is rounded to bf16 (the
  identity on the extended reals), multiplied by the block's first weight matrix into a zero accumulator, the first
  bias row is added to every row, the result is rounded and multiplied by the second weight matrix, the second bias
  row is added, then the tile itself, and the positive part is taken.  `klayer` is that block on whole vectors; the two
  payloads of the body are it applied once and twice more (`pay_first`, `pay_rest`), and at row p, column q it is the
  row function `Cert.Mlp.layerRow` of row p of the tile (`klayer_apply`): a matrix product into a zero accumulator is,
  entry by entry, the plain sum of products over the contracted axis.
-/
import proofs.«102849_j47614007443581_1_alg».proof.Proof.Gen.KernelIdeal.Skeleton
import proofs.«102849_j47614007443581_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Mlp

/-! ## The two matrix products of a block, entry by entry -/

theorem kdot1_lhs0 (i : S1024x256.Idx) (q : dot_S1024x429_S429x256_S1024x256_1_0_0_1_n_n.contr.Idx) : (dot_S1024x429_S429x256_S1024x256_1_0_0_1_n_n.lhsIdx i q 0).val = (i 0).val := by
  unfold DotDims.lhsIdx
  rw [dif_neg (show ¬(0 : Fin S1024x429.rank) ∈ dot_S1024x429_S429x256_S1024x256_1_0_0_1_n_n.lhsBatch by decide), dif_pos (show (0 : Fin S1024x429.rank) ∈ dot_S1024x429_S429x256_S1024x256_1_0_0_1_n_n.lhsNonContracting by decide)]
  rfl
theorem kdot1_rhs1 (i : S1024x256.Idx) (q : dot_S1024x429_S429x256_S1024x256_1_0_0_1_n_n.contr.Idx) : (dot_S1024x429_S429x256_S1024x256_1_0_0_1_n_n.rhsIdx i q 1).val = (i 1).val := by
  unfold DotDims.rhsIdx
  rw [dif_neg (show ¬(1 : Fin S429x256.rank) ∈ dot_S1024x429_S429x256_S1024x256_1_0_0_1_n_n.rhsBatch by decide), dif_pos (show (1 : Fin S429x256.rank) ∈ dot_S1024x429_S429x256_S1024x256_1_0_0_1_n_n.rhsNonContracting by decide)]
  rfl

/-- The first product of a block: entry (p, c) of tile × W1 is the sum over the 429 features. -/
theorem kdot1_apply (l : FVec Ideal S1024x429 .bf16) (r : FVec Ideal S429x256 .bf16) (p : Fin 1024) (c : Fin 256) :
    matmul dot_S1024x429_S429x256_S1024x256_1_0_0_1_n_n none l r (constant (F := Ideal) S1024x256 .f32 0x00000000#32) (ix2 p c)
      = ∑ k : Fin 429, l (ix2 p k) * r (ix2 k c) := by
  simp only [matmul]
  rw [Ideal.matmul_constant_zero_apply, ← Equiv.sum_comp (ValueIdx.contrEquiv1 dot_S1024x429_S429x256_S1024x256_1_0_0_1_n_n 429 rfl rfl).symm]
  refine Finset.sum_congr rfl fun k _ => ?_
  have hk := ValueIdx.contrEquiv1_symm_val dot_S1024x429_S429x256_S1024x256_1_0_0_1_n_n 429 rfl rfl k
  have el : dot_S1024x429_S429x256_S1024x256_1_0_0_1_n_n.lhsIdx (ix2 p c) ((ValueIdx.contrEquiv1 dot_S1024x429_S429x256_S1024x256_1_0_0_1_n_n 429 rfl rfl).symm k) = ix2 p k := funext fun a => Fin.ext (by
    match a with
    | ⟨0, _⟩ => exact kdot1_lhs0 _ _
    | ⟨1, _⟩ => exact (dot_S1024x429_S429x256_S1024x256_1_0_0_1_n_n.lhsIdx_val_of_single rfl _ _).trans hk)
  have er : dot_S1024x429_S429x256_S1024x256_1_0_0_1_n_n.rhsIdx (ix2 p c) ((ValueIdx.contrEquiv1 dot_S1024x429_S429x256_S1024x256_1_0_0_1_n_n 429 rfl rfl).symm k) = ix2 k c := funext fun a => Fin.ext (by
    match a with
    | ⟨0, _⟩ => exact (dot_S1024x429_S429x256_S1024x256_1_0_0_1_n_n.rhsIdx_val_of_single rfl _ _).trans hk
    | ⟨1, _⟩ => exact kdot1_rhs1 _ _)
  rw [el, er]

theorem kdot2_lhs0 (i : S1024x429.Idx) (q : dot_S1024x256_S256x429_S1024x429_1_0_0_1_n_n.contr.Idx) : (dot_S1024x256_S256x429_S1024x429_1_0_0_1_n_n.lhsIdx i q 0).val = (i 0).val := by
  unfold DotDims.lhsIdx
  rw [dif_neg (show ¬(0 : Fin S1024x256.rank) ∈ dot_S1024x256_S256x429_S1024x429_1_0_0_1_n_n.lhsBatch by decide), dif_pos (show (0 : Fin S1024x256.rank) ∈ dot_S1024x256_S256x429_S1024x429_1_0_0_1_n_n.lhsNonContracting by decide)]
  rfl
theorem kdot2_rhs1 (i : S1024x429.Idx) (q : dot_S1024x256_S256x429_S1024x429_1_0_0_1_n_n.contr.Idx) : (dot_S1024x256_S256x429_S1024x429_1_0_0_1_n_n.rhsIdx i q 1).val = (i 1).val := by
  unfold DotDims.rhsIdx
  rw [dif_neg (show ¬(1 : Fin S256x429.rank) ∈ dot_S1024x256_S256x429_S1024x429_1_0_0_1_n_n.rhsBatch by decide), dif_pos (show (1 : Fin S256x429.rank) ∈ dot_S1024x256_S256x429_S1024x429_1_0_0_1_n_n.rhsNonContracting by decide)]
  rfl

/-- The second product of a block: entry (p, c) of hidden × W2 is the sum over the 256 hidden units. -/
theorem kdot2_apply (l : FVec Ideal S1024x256 .bf16) (r : FVec Ideal S256x429 .bf16) (p : Fin 1024) (c : Fin 429) :
    matmul dot_S1024x256_S256x429_S1024x429_1_0_0_1_n_n none l r (constant (F := Ideal) S1024x429 .f32 0x00000000#32) (ix2 p c)
      = ∑ k : Fin 256, l (ix2 p k) * r (ix2 k c) := by
  simp only [matmul]
  rw [Ideal.matmul_constant_zero_apply, ← Equiv.sum_comp (ValueIdx.contrEquiv1 dot_S1024x256_S256x429_S1024x429_1_0_0_1_n_n 256 rfl rfl).symm]
  refine Finset.sum_congr rfl fun k _ => ?_
  have hk := ValueIdx.contrEquiv1_symm_val dot_S1024x256_S256x429_S1024x429_1_0_0_1_n_n 256 rfl rfl k
  have el : dot_S1024x256_S256x429_S1024x429_1_0_0_1_n_n.lhsIdx (ix2 p c) ((ValueIdx.contrEquiv1 dot_S1024x256_S256x429_S1024x429_1_0_0_1_n_n 256 rfl rfl).symm k) = ix2 p k := funext fun a => Fin.ext (by
    match a with
    | ⟨0, _⟩ => exact kdot2_lhs0 _ _
    | ⟨1, _⟩ => exact (dot_S1024x256_S256x429_S1024x429_1_0_0_1_n_n.lhsIdx_val_of_single rfl _ _).trans hk)
  have er : dot_S1024x256_S256x429_S1024x429_1_0_0_1_n_n.rhsIdx (ix2 p c) ((ValueIdx.contrEquiv1 dot_S1024x256_S256x429_S1024x429_1_0_0_1_n_n 256 rfl rfl).symm k) = ix2 k c := funext fun a => Fin.ext (by
    match a with
    | ⟨0, _⟩ => exact (dot_S1024x256_S256x429_S1024x429_1_0_0_1_n_n.rhsIdx_val_of_single rfl _ _).trans hk
    | ⟨1, _⟩ => exact kdot2_rhs1 _ _)
  rw [el, er]

/-! ## One block on whole vectors -/

/-- One residual block of the body on whole vectors: the tile `x`, the block's two weight matrices (already rounded)
    and its two bias vectors. -/
def klayer (x : FVec Ideal S1024x429 .f32) (w1 : FVec Ideal S429x256 .bf16) (b1 : FVec Ideal S256 .f32)
    (w2 : FVec Ideal S256x429 .bf16) (b2 : FVec Ideal S429 .f32) : FVec Ideal S1024x429 .f32 :=
  maximumf
    (addf
      (addf
        (matmul dot_S1024x256_S256x429_S1024x429_1_0_0_1_n_n none
          (truncf .bf16
            (addf
              (matmul dot_S1024x429_S429x256_S1024x256_1_0_0_1_n_n none (truncf .bf16 x bitsLt_bf16_f32) w1 (constant S1024x256 .f32 0x00000000#32))
              (broadcastTo S1024x256 (shapeCast S1x256 b1 shapeCasts_S256_S1x256) broadcasts_S1x256_S1024x256))
            bitsLt_bf16_f32)
          w2 (constant S1024x429 .f32 0x00000000#32))
        (broadcastTo S1024x429 (shapeCast S1x429 b2 shapeCasts_S429_S1x429) broadcasts_S1x429_S1024x429))
      x)
    (broadcast S1024x429 (Scalar.ofBits .f32 0x00000000#32))

/-- The body's first payload is one block on the loaded tile and the first slices of the parameters. -/
theorem pay_first (v0 : Vec Ideal S1024x429 .f32) (v2 : Vec Ideal S1x429x256 .f32) (v5 : Vec Ideal S1x256 .f32)
    (v7 : Vec Ideal S1x256x429 .f32) (v10 : Vec Ideal S1x429 .f32) :
    k0_pay2 (F := Ideal) v0 v2 v5 v7 v10
      = klayer (shapeCast S1024x429 v0 shapeCasts_S1024x429_S1024x429)
          (truncf .bf16 (shapeCast S429x256 v2 shapeCasts_S1x429x256_S429x256) bitsLt_bf16_f32)
          (shapeCast S256 v5 shapeCasts_S1x256_S256)
          (truncf .bf16 (shapeCast S256x429 v7 shapeCasts_S1x256x429_S256x429) bitsLt_bf16_f32)
          (shapeCast S429 v10 shapeCasts_S1x429_S429) := rfl

/-- The body's stored payload is two more blocks on the first payload's result. -/
theorem pay_rest (v24 : FVec Ideal S1024x429 .f32) (v27 : FVec Ideal S429x256 .bf16) (v29 : FVec Ideal S256 .f32)
    (v32 : FVec Ideal S256x429 .bf16) (v33 : Vec Ideal S1x429 .f32) (v48 : Vec Ideal S1x429x256 .f32)
    (v51 : Vec Ideal S1x256 .f32) (v53 : Vec Ideal S1x256x429 .f32) (v56 : Vec Ideal S1x429 .f32) :
    k0_pay1 (F := Ideal) v24 v27 v29 v32 v33 v48 v51 v53 v56
      = klayer (klayer v24 v27 v29 v32 (shapeCast S429 v33 shapeCasts_S1x429_S429))
          (truncf .bf16 (shapeCast S429x256 v48 shapeCasts_S1x429x256_S429x256) bitsLt_bf16_f32)
          (shapeCast S256 v51 shapeCasts_S1x256_S256)
          (truncf .bf16 (shapeCast S256x429 v53 shapeCasts_S1x256x429_S256x429) bitsLt_bf16_f32)
          (shapeCast S429 v56 shapeCasts_S1x429_S429) := rfl

/-- A bias vector laid out as one row and repeated down the tile reads, at (p, c), the vector at c. -/
theorem bias1_apply (b1 : FVec Ideal S256 .f32) (p : Fin 1024) (c : Fin 256) :
    broadcastTo S1024x256 (shapeCast S1x256 b1 shapeCasts_S256_S1x256) broadcasts_S1x256_S1024x256 (ix2 p c) = b1 (ix1 c) := by
  rw [broadcastTo_1b_ab_apply, shapeCast_a_1a_apply]
theorem bias2_apply (b2 : FVec Ideal S429 .f32) (p : Fin 1024) (c : Fin 429) :
    broadcastTo S1024x429 (shapeCast S1x429 b2 shapeCasts_S429_S1x429) broadcasts_S1x429_S1024x429 (ix2 p c) = b2 (ix1 c) := by
  rw [broadcastTo_1b_ab_apply, shapeCast_a_1a_apply]

/-- One block of the body at row p, column q is the row function of row p of the tile. -/
theorem klayer_apply (x : FVec Ideal S1024x429 .f32) (w1 : FVec Ideal S429x256 .bf16) (b1 : FVec Ideal S256 .f32)
    (w2 : FVec Ideal S256x429 .bf16) (b2 : FVec Ideal S429 .f32) (p : Fin 1024) (q : Fin 429) :
    klayer x w1 b1 w2 b2 (ix2 p q)
      = layerRow (fun j => x (ix2 p j)) (fun j k => w1 (ix2 j k)) (fun k => b1 (ix1 k)) (fun k c => w2 (ix2 k c))
          (fun c => b2 (ix1 c)) q := by
  unfold klayer layerRow
  rw [maximumf_apply, addf_apply, addf_apply, kdot2_apply, bias2_apply, broadcast_apply]
  refine congrArg (fun s => max (s + b2 (ix1 q) + x (ix2 p q)) _) (Finset.sum_congr rfl fun k _ => ?_)
  rw [truncf_apply, addf_apply, kdot1_apply, bias1_apply]
  refine congrArg (fun s => (s + b1 (ix1 k)) * w2 (ix2 k q)) (Finset.sum_congr rfl fun j _ => ?_)
  rw [truncf_apply]

end Cert.KernelIdeal.Hand

end
-- ==== Proof.KernelBlock.lean ====
/-
  What one grid point leaves in the output tile, entry by entry.

  The body loads its whole tile of 1024 rows, and from the four staged parameter stacks the slices 0, 1, 2 in turn
  (a unit-stride rectangle at offset l on the leading axis, laid out as a matrix or a vector by a shape cast that
  drops the unit axis), and stores one value over the whole output tile.  So the tile after the body is, at row p and
  column q, the three blocks of the stack applied to row p of the input tile: `out_tile`.
-/
import proofs.«102849_j47614007443581_1_alg».proof.Proof.Gen.KernelIdeal.Frame
import proofs.«102849_j47614007443581_1_alg».proof.Proof.KernelLayer

noncomputable section

namespace Cert.KernelIdeal.Hand

open Cert.KernelIdeal Cert.KernelIdeal.Gen Idealize.ShloMosaic Idealize.ShloMosaic.ValueIdx Cert.Mlp

theorem hz2 : (![0, 0] : Fin 2 → Nat) = fun _ => 0 := funext fun a => by fin_cases a <;> rfl

/-! ## The slices of the staged parameters -/

/-- Slice 0 of the stacked first weights, laid out as a matrix. -/
theorem w1_slice0 (x1 : Vec Ideal S3x429x256 .f32) (j : Fin 429) (k : Fin 256) :
    (shapeCast S429x256 (View.ld x1 r0_1) shapeCasts_S1x429x256_S429x256 : FVec Ideal S429x256 .f32) (ix2 j k) = x1 (ix3 (0 : Fin 3) j k) := by
  refine (shapeCast_1ab_ab_apply _ _ j k).trans ?_
  show x1 _ = x1 _
  refine congrArg x1 (funext fun a => Fin.ext ?_)
  match a with
  | ⟨0, _⟩ => show 0 + 1 * 0 = 0; omega
  | ⟨1, _⟩ => show 0 + 1 * j.val = j.val; omega
  | ⟨2, _⟩ => show 0 + 1 * k.val = k.val; omega
/-- Slice 0 of the stacked first biases, as a vector. -/
theorem b1_slice0 (x2 : Vec Ideal S3x256 .f32) (k : Fin 256) :
    (shapeCast S256 (View.ld x2 r0_2) shapeCasts_S1x256_S256 : FVec Ideal S256 .f32) (ix1 k) = x2 (ix2 (0 : Fin 3) k) := by
  refine (shapeCast_1a_a_apply _ _ k).trans ?_
  show x2 _ = x2 _
  refine congrArg x2 (funext fun a => Fin.ext ?_)
  match a with
  | ⟨0, _⟩ => show 0 + 1 * 0 = 0; omega
  | ⟨1, _⟩ => show 0 + 1 * k.val = k.val; omega
/-- Slice 0 of the stacked second weights, laid out as a matrix. -/
theorem w2_slice0 (x3 : Vec Ideal S3x256x429 .f32) (k : Fin 256) (c : Fin 429) :
    (shapeCast S256x429 (View.ld x3 r0_3) shapeCasts_S1x256x429_S256x429 : FVec Ideal S256x429 .f32) (ix2 k c) = x3 (ix3 (0 : Fin 3) k c) := by
  refine (shapeCast_1ab_ab_apply _ _ k c).trans ?_
  show x3 _ = x3 _
  refine congrArg x3 (funext fun a => Fin.ext ?_)
  match a with
  | ⟨0, _⟩ => show 0 + 1 * 0 = 0; omega
  | ⟨1, _⟩ => show 0 + 1 * k.val = k.val; omega
  | ⟨2, _⟩ => show 0 + 1 * c.val = c.val; omega
/-- Slice 0 of the stacked second biases, as a vector. -/
theorem b2_slice0 (x4 : Vec Ideal S3x429 .f32) (c : Fin 429) :
    (shapeCast S429 (View.ld x4 r0_4) shapeCasts_S1x429_S429 : FVec Ideal S429 .f32) (ix1 c) = x4 (ix2 (0 : Fin 3) c) := by
  refine (shapeCast_1a_a_apply _ _ c).trans ?_
  show x4 _ = x4 _
  refine congrArg x4 (funext fun a => Fin.ext ?_)
  match a with
  | ⟨0, _⟩ => show 0 + 1 * 0 = 0; omega
  | ⟨1, _⟩ => show 0 + 1 * c.val = c.val; omega

/-- The body's block on slice 0 of the staged parameters is block 0 of the stack on the tile's row. -/
theorem kblock0 (x : FVec Ideal S1024x429 .f32) (x1 : Vec Ideal S3x429x256 .f32) (x2 : Vec Ideal S3x256 .f32)
    (x3 : Vec Ideal S3x256x429 .f32) (x4 : Vec Ideal S3x429 .f32) (p : Fin 1024) (q : Fin 429) :
    klayer x (truncf .bf16 (shapeCast S429x256 (View.ld x1 r0_1) shapeCasts_S1x429x256_S429x256) bitsLt_bf16_f32)
        (shapeCast S256 (View.ld x2 r0_2) shapeCasts_S1x256_S256)
        (truncf .bf16 (shapeCast S256x429 (View.ld x3 r0_3) shapeCasts_S1x256x429_S256x429) bitsLt_bf16_f32)
        (shapeCast S429 (View.ld x4 r0_4) shapeCasts_S1x429_S429) (ix2 p q)
      = block (0 : Fin 3) x1 x2 x3 x4 (fun j => x (ix2 p j)) q := by
  rw [klayer_apply]
  unfold block
  have e1 : (fun (j : Fin 429) (k : Fin 256) => (truncf .bf16 (shapeCast S429x256 (View.ld x1 r0_1) shapeCasts_S1x429x256_S429x256) bitsLt_bf16_f32 : FVec Ideal S429x256 .bf16) (ix2 j k))
      = fun j k => x1 (ix3 (0 : Fin 3) j k) := funext fun j => funext fun k => w1_slice0 x1 j k
  have e2 : (fun (k : Fin 256) => (shapeCast S256 (View.ld x2 r0_2) shapeCasts_S1x256_S256 : FVec Ideal S256 .f32) (ix1 k))
      = fun k => x2 (ix2 (0 : Fin 3) k) := funext fun k => b1_slice0 x2 k
  have e3 : (fun (k : Fin 256) (c : Fin 429) => (truncf .bf16 (shapeCast S256x429 (View.ld x3 r0_3) shapeCasts_S1x256x429_S256x429) bitsLt_bf16_f32 : FVec Ideal S256x429 .bf16) (ix2 k c))
      = fun k c => x3 (ix3 (0 : Fin 3) k c) := funext fun k => funext fun c => w2_slice0 x3 k c
  have e4 : (fun (c : Fin 429) => (shapeCast S429 (View.ld x4 r0_4) shapeCasts_S1x429_S429 : FVec Ideal S429 .f32) (ix1 c))
      = fun c => x4 (ix2 (0 : Fin 3) c) := funext fun c => b2_slice0 x4 c
  rw [e1, e2, e3, e4]

/-- Slice 1 of the stacked first weights, laid out as a matrix. -/
theorem w1_slice1 (x1 : Vec Ideal S3x429x256 .f32) (j : Fin 429) (k : Fin 256) :
    (shapeCast S429x256 (View.ld x1 r0_5) shapeCasts_S1x429x256_S429x256 : FVec Ideal S429x256 .f32) (ix2 j k) = x1 (ix3 (1 : Fin 3) j k) := by
  refine (shapeCast_1ab_ab_apply _ _ j k).trans ?_
  show x1 _ = x1 _
  refine congrArg x1 (funext fun a => Fin.ext ?_)
  match a with
  | ⟨0, _⟩ => show 1 + 1 * 0 = 1; omega
  | ⟨1, _⟩ => show 0 + 1 * j.val = j.val; omega
  | ⟨2, _⟩ => show 0 + 1 * k.val = k.val; omega
/-- Slice 1 of the stacked first biases, as a vector. -/
theorem b1_slice1 (x2 : Vec Ideal S3x256 .f32) (k : Fin 256) :
    (shapeCast S256 (View.ld x2 r0_6) shapeCasts_S1x256_S256 : FVec Ideal S256 .f32) (ix1 k) = x2 (ix2 (1 : Fin 3) k) := by
  refine (shapeCast_1a_a_apply _ _ k).trans ?_
  show x2 _ = x2 _
  refine congrArg x2 (funext fun a => Fin.ext ?_)
  match a with
  | ⟨0, _⟩ => show 1 + 1 * 0 = 1; omega
  | ⟨1, _⟩ => show 0 + 1 * k.val = k.val; omega
/-- Slice 1 of the stacked second weights, laid out as a matrix. -/
theorem w2_slice1 (x3 : Vec Ideal S3x256x429 .f32) (k : Fin 256) (c : Fin 429) :
    (shapeCast S256x429 (View.ld x3 r0_7) shapeCasts_S1x256x429_S256x429 : FVec Ideal S256x429 .f32) (ix2 k c) = x3 (ix3 (1 : Fin 3) k c) := by
  refine (shapeCast_1ab_ab_apply _ _ k c).trans ?_
  show x3 _ = x3 _
  refine congrArg x3 (funext fun a => Fin.ext ?_)
  match a with
  | ⟨0, _⟩ => show 1 + 1 * 0 = 1; omega
  | ⟨1, _⟩ => show 0 + 1 * k.val = k.val; omega
  | ⟨2, _⟩ => show 0 + 1 * c.val = c.val; omega
/-- Slice 1 of the stacked second biases, as a vector. -/
theorem b2_slice1 (x4 : Vec Ideal S3x429 .f32) (c : Fin 429) :
    (shapeCast S429 (View.ld x4 r0_8) shapeCasts_S1x429_S429 : FVec Ideal S429 .f32) (ix1 c) = x4 (ix2 (1 : Fin 3) c) := by
  refine (shapeCast_1a_a_apply _ _ c).trans ?_
  show x4 _ = x4 _
  refine congrArg x4 (funext fun a => Fin.ext ?_)
  match a with
  | ⟨0, _⟩ => show 1 + 1 * 0 = 1; omega
  | ⟨1, _⟩ => show 0 + 1 * c.val = c.val; omega

/-- The body's block on slice 1 of the staged parameters is block 1 of the stack on the tile's row. -/
theorem kblock1 (x : FVec Ideal S1024x429 .f32) (x1 : Vec Ideal S3x429x256 .f32) (x2 : Vec Ideal S3x256 .f32)
    (x3 : Vec Ideal S3x256x429 .f32) (x4 : Vec Ideal S3x429 .f32) (p : Fin 1024) (q : Fin 429) :
    klayer x (truncf .bf16 (shapeCast S429x256 (View.ld x1 r0_5) shapeCasts_S1x429x256_S429x256) bitsLt_bf16_f32)
        (shapeCast S256 (View.ld x2 r0_6) shapeCasts_S1x256_S256)
        (truncf .bf16 (shapeCast S256x429 (View.ld x3 r0_7) shapeCasts_S1x256x429_S256x429) bitsLt_bf16_f32)
        (shapeCast S429 (View.ld x4 r0_8) shapeCasts_S1x429_S429) (ix2 p q)
      = block (1 : Fin 3) x1 x2 x3 x4 (fun j => x (ix2 p j)) q := by
  rw [klayer_apply]
  unfold block
  have e1 : (fun (j : Fin 429) (k : Fin 256) => (truncf .bf16 (shapeCast S429x256 (View.ld x1 r0_5) shapeCasts_S1x429x256_S429x256) bitsLt_bf16_f32 : FVec Ideal S429x256 .bf16) (ix2 j k))
      = fun j k => x1 (ix3 (1 : Fin 3) j k) := funext fun j => funext fun k => w1_slice1 x1 j k
  have e2 : (fun (k : Fin 256) => (shapeCast S256 (View.ld x2 r0_6) shapeCasts_S1x256_S256 : FVec Ideal S256 .f32) (ix1 k))
      = fun k => x2 (ix2 (1 : Fin 3) k) := funext fun k => b1_slice1 x2 k
  have e3 : (fun (k : Fin 256) (c : Fin 429) => (truncf .bf16 (shapeCast S256x429 (View.ld x3 r0_7) shapeCasts_S1x256x429_S256x429) bitsLt_bf16_f32 : FVec Ideal S256x429 .bf16) (ix2 k c))
      = fun k c => x3 (ix3 (1 : Fin 3) k c) := funext fun k => funext fun c => w2_slice1 x3 k c
  have e4 : (fun (c : Fin 429) => (shapeCast S429 (View.ld x4 r0_8) shapeCasts_S1x429_S429 : FVec Ideal S429 .f32) (ix1 c))
      = fun c => x4 (ix2 (1 : Fin 3) c) := funext fun c => b2_slice1 x4 c
  rw [e1, e2, e3, e4]

/-- Slice 2 of the stacked first weights, laid out as a matrix. -/
theorem w1_slice2 (x1 : Vec Ideal S3x429x256 .f32) (j : Fin 429) (k : Fin 256) :
    (shapeCast S429x256 (View.ld x1 r0_9) shapeCasts_S1x429x256_S429x256 : FVec Ideal S429x256 .f32) (ix2 j k) = x1 (ix3 (2 : Fin 3) j k) := by
  refine (shapeCast_1ab_ab_apply _ _ j k).trans ?_
  show x1 _ = x1 _
  refine congrArg x1 (funext fun a => Fin.ext ?_)
  match a with
  | ⟨0, _⟩ => show 2 + 1 * 0 = 2; omega
  | ⟨1, _⟩ => show 0 + 1 * j.val = j.val; omega
  | ⟨2, _⟩ => show 0 + 1 * k.val = k.val; omega
/-- Slice 2 of the stacked first biases, as a vector. -/
theorem b1_slice2 (x2 : Vec Ideal S3x256 .f32) (k : Fin 256) :
    (shapeCast S256 (View.ld x2 r0_10) shapeCasts_S1x256_S256 : FVec Ideal S256 .f32) (ix1 k) = x2 (ix2 (2 : Fin 3) k) := by
  refine (shapeCast_1a_a_apply _ _ k).trans ?_
  show x2 _ = x2 _
  refine congrArg x2 (funext fun a => Fin.ext ?_)
  match a with
  | ⟨0, _⟩ => show 2 + 1 * 0 = 2; omega
  | ⟨1, _⟩ => show 0 + 1 * k.val = k.val; omega
/-- Slice 2 of the stacked second weights, laid out as a matrix. -/
theorem w2_slice2 (x3 : Vec Ideal S3x256x429 .f32) (k : Fin 256) (c : Fin 429) :
    (shapeCast S256x429 (View.ld x3 r0_11) shapeCasts_S1x256x429_S256x429 : FVec Ideal S256x429 .f32) (ix2 k c) = x3 (ix3 (2 : Fin 3) k c) := by
  refine (shapeCast_1ab_ab_apply _ _ k c).trans ?_
  show x3 _ = x3 _
  refine congrArg x3 (funext fun a => Fin.ext ?_)
  match a with
  | ⟨0, _⟩ => show 2 + 1 * 0 = 2; omega
  | ⟨1, _⟩ => show 0 + 1 * k.val = k.val; omega
  | ⟨2, _⟩ => show 0 + 1 * c.val = c.val; omega
/-- Slice 2 of the stacked second biases, as a vector. -/
theorem b2_slice2 (x4 : Vec Ideal S3x429 .f32) (c : Fin 429) :
    (shapeCast S429 (View.ld x4 r0_12) shapeCasts_S1x429_S429 : FVec Ideal S429 .f32) (ix1 c) = x4 (ix2 (2 : Fin 3) c) := by
  refine (shapeCast_1a_a_apply _ _ c).trans ?_
  show x4 _ = x4 _
  refine congrArg x4 (funext fun a => Fin.ext ?_)
  match a with
  | ⟨0, _⟩ => show 2 + 1 * 0 = 2; omega
  | ⟨1, _⟩ => show 0 + 1 * c.val = c.val; omega

/-- The body's block on slice 2 of the staged parameters is block 2 of the stack on the tile's row. -/
theorem kblock2 (x : FVec Ideal S1024x429 .f32) (x1 : Vec Ideal S3x429x256 .f32) (x2 : Vec Ideal S3x256 .f32)
    (x3 : Vec Ideal S3x256x429 .f32) (x4 : Vec Ideal S3x429 .f32) (p : Fin 1024) (q : Fin 429) :
    klayer x (truncf .bf16 (shapeCast S429x256 (View.ld x1 r0_9) shapeCasts_S1x429x256_S429x256) bitsLt_bf16_f32)
        (shapeCast S256 (View.ld x2 r0_10) shapeCasts_S1x256_S256)
        (truncf .bf16 (shapeCast S256x429 (View.ld x3 r0_11) shapeCasts_S1x256x429_S256x429) bitsLt_bf16_f32)
        (shapeCast S429 (View.ld x4 r0_12) shapeCasts_S1x429_S429) (ix2 p q)
      = block (2 : Fin 3) x1 x2 x3 x4 (fun j => x (ix2 p j)) q := by
  rw [klayer_apply]
  unfold block
  have e1 : (fun (j : Fin 429) (k : Fin 256) => (truncf .bf16 (shapeCast S429x256 (View.ld x1 r0_9) shapeCasts_S1x429x256_S429x256) bitsLt_bf16_f32 : FVec Ideal S429x256 .bf16) (ix2 j k))
      = fun j k => x1 (ix3 (2 : Fin 3) j k) := funext fun j => funext fun k => w1_slice2 x1 j k
  have e2 : (fun (k : Fin 256) => (shapeCast S256 (View.ld x2 r0_10) shapeCasts_S1x256_S256 : FVec Ideal S256 .f32) (ix1 k))
      = fun k => x2 (ix2 (2 : Fin 3) k) := funext fun k => b1_slice2 x2 k
  have e3 : (fun (k : Fin 256) (c : Fin 429) => (truncf .bf16 (shapeCast S256x429 (View.ld x3 r0_11) shapeCasts_S1x256x429_S256x429) bitsLt_bf16_f32 : FVec Ideal S256x429 .bf16) (ix2 k c))
      = fun k c => x3 (ix3 (2 : Fin 3) k c) := funext fun k => funext fun c => w2_slice2 x3 k c
  have e4 : (fun (c : Fin 429) => (shapeCast S429 (View.ld x4 r0_12) shapeCasts_S1x429_S429 : FVec Ideal S429 .f32) (ix1 c))
      = fun c => x4 (ix2 (2 : Fin 3) c) := funext fun c => b2_slice2 x4 c
  rw [e1, e2, e3, e4]

/-! ## The output tile -/

/-- The output tile after the body, at row p and column q: the three blocks of the stack on row p of the input tile. -/
theorem out_tile (x0 : Vec Ideal S1024x429 .f32) (x1 : Vec Ideal S3x429x256 .f32) (x2 : Vec Ideal S3x256 .f32)
    (x3 : Vec Ideal S3x256x429 .f32) (x4 : Vec Ideal S3x429 .f32) (p : Fin 1024) (q : Fin 429) :
    out0_5 (F := Ideal) x0 x1 x2 x3 x4 (ix2 p q) = mlpRow x1 x2 x3 x4 (fun j => x0 (ix2 p j)) q := by
  unfold out0_5
  rw [View.canon_unit_zero hz2, pay_rest, pay_first, View.ld_unit_zero (S := S1024x429) hz2, shapeCast_self]
  unfold k0_pay3 k0_pay4 k0_pay5 mlpRow
  rw [kblock2]
  refine congrArg (fun y => block 2 x1 x2 x3 x4 y q) (funext fun j => ?_)
  rw [kblock1]
  refine congrArg (fun y => block 1 x1 x2 x3 x4 y j) (funext fun j' => ?_)
  rw [kblock0]

/-- The same at any index of the tile. -/
theorem out_tile_idx (x0 : Vec Ideal S1024x429 .f32) (x1 : Vec Ideal S3x429x256 .f32) (x2 : Vec Ideal S3x256 .f32)
    (x3 : Vec Ideal S3x256x429 .f32) (x4 : Vec Ideal S3x429 .f32) (i : S1024x429.Idx) :
    out0_5 (F := Ideal) x0 x1 x2 x3 x4 i = mlpRow x1 x2 x3 x4 (fun j => x0 (ix2 (n0 := 1024) (n1 := 429) (i 0) j)) (i 1) := by
  obtain ⟨p, q, rfl⟩ : ∃ (p : Fin 1024) (q : Fin 429), i = ix2 p q := ⟨i 0, i 1, eq_ix2 i⟩
  exact out_tile x0 x1 x2 x3 x4 p q

end Cert.KernelIdeal.Hand

end
-- ==== Proof.KernelArray.lean ====
/-
  From tiles to the array: what the region leaves in its output array.

  The grid has 16 points; point t stages rows 1024 t … 1024 t + 1023 of the stacked feature array and, whole, the
  four parameter stacks, and writes its output tile back to the same rows of the output array.  By the tile lemma
  the tile written at point t is rows 1024 t … of ONE function of the arrays as the region finds them — the three
  blocks applied row by row (`Cert.Mlp.mlpArr`), a row of the result depending on that row of the input only.  The
  sixteen tiles cover the array (row r lies in tile r / 1024), so the output array ends holding that function.
-/
import proofs.«102849_j47614007443581_1_alg».proof.Proof.Gen.KernelIdeal.Frame
import proofs.«102849_j47614007443581_1_alg».proof.Proof.KernelBlock
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem Cert.Mlp
open Idealize.ShloMosaic.Pipeline (Dat)

variable (m : (ℓ : Loc nD τ sig) → Buf (Elt Ideal) ℓ)

/-- The printed index maps, decided over the grid: the tiled windows sit at block row t, the parameter windows at
    block zero on every axis. -/
structure IdxWhole (t : Fin cfg0.N) : Prop where
  «0_0» : win0_0.index t (0 : Fin 2) = t.val
  «0_1» : win0_0.index t (1 : Fin 2) = 0
  «5_0» : win0_5.index t (0 : Fin 2) = t.val
  «5_1» : win0_5.index t (1 : Fin 2) = 0
  «1_0» : win0_1.index t (0 : Fin 3) = 0
  «1_1» : win0_1.index t (1 : Fin 3) = 0
  «1_2» : win0_1.index t (2 : Fin 3) = 0
  «2_0» : win0_2.index t (0 : Fin 2) = 0
  «2_1» : win0_2.index t (1 : Fin 2) = 0
  «3_0» : win0_3.index t (0 : Fin 3) = 0
  «3_1» : win0_3.index t (1 : Fin 3) = 0
  «3_2» : win0_3.index t (2 : Fin 3) = 0
  «4_0» : win0_4.index t (0 : Fin 2) = 0
  «4_1» : win0_4.index t (1 : Fin 2) = 0

theorem idx_all : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

theorem idx_whole (t : Fin cfg0.N) : IdxWhole t := by
  obtain ⟨a, b, c, d, e, f, g, h, i, j, k, l, mm, n⟩ := idx_all t
  exact ⟨a, b, c, d, e, f, g, h, i, j, k, l, mm, n⟩

/-! ## The staged blocks as parts of the arrays -/

/-- The first weights are staged whole at every point. -/
theorem blk_w1 (c : Dev nD) (t : Fin cfg0.N) : iblk m c 1 t = V m c main_arg4 := by
  funext z
  show V m c main_arg4 (((cfg0.win 1).blk t).view.emb z) = V m c main_arg4 z
  refine congrArg (V m c main_arg4) (funext fun a => Fin.ext ?_)
  match a with
    | ⟨0, _⟩ => show win0_1.index t (0 : Fin 3) * 3 + 1 * (z 0).val = (z 0).val; rw [(idx_whole t).«1_0»]; omega
    | ⟨1, _⟩ => show win0_1.index t (1 : Fin 3) * 429 + 1 * (z 1).val = (z 1).val; rw [(idx_whole t).«1_1»]; omega
    | ⟨2, _⟩ => show win0_1.index t (2 : Fin 3) * 256 + 1 * (z 2).val = (z 2).val; rw [(idx_whole t).«1_2»]; omega

/-- The first biases are staged whole at every point. -/
theorem blk_b1 (c : Dev nD) (t : Fin cfg0.N) : iblk m c 2 t = V m c main_arg5 := by
  funext z
  show V m c main_arg5 (((cfg0.win 2).blk t).view.emb z) = V m c main_arg5 z
  refine congrArg (V m c main_arg5) (funext fun a => Fin.ext ?_)
  match a with
    | ⟨0, _⟩ => show win0_2.index t (0 : Fin 2) * 3 + 1 * (z 0).val = (z 0).val; rw [(idx_whole t).«2_0»]; omega
    | ⟨1, _⟩ => show win0_2.index t (1 : Fin 2) * 256 + 1 * (z 1).val = (z 1).val; rw [(idx_whole t).«2_1»]; omega

/-- The second weights are staged whole at every point. -/
theorem blk_w2 (c : Dev nD) (t : Fin cfg0.N) : iblk m c 3 t = V m c main_arg6 := by
  funext z
  show V m c main_arg6 (((cfg0.win 3).blk t).view.emb z) = V m c main_arg6 z
  refine congrArg (V m c main_arg6) (funext fun a => Fin.ext ?_)
  match a with
    | ⟨0, _⟩ => show win0_3.index t (0 : Fin 3) * 3 + 1 * (z 0).val = (z 0).val; rw [(idx_whole t).«3_0»]; omega
    | ⟨1, _⟩ => show win0_3.index t (1 : Fin 3) * 256 + 1 * (z 1).val = (z 1).val; rw [(idx_whole t).«3_1»]; omega
    | ⟨2, _⟩ => show win0_3.index t (2 : Fin 3) * 429 + 1 * (z 2).val = (z 2).val; rw [(idx_whole t).«3_2»]; omega

/-- The second biases are staged whole at every point. -/
theorem blk_b2 (c : Dev nD) (t : Fin cfg0.N) : iblk m c 4 t = V m c main_arg7 := by
  funext z
  show V m c main_arg7 (((cfg0.win 4).blk t).view.emb z) = V m c main_arg7 z
  refine congrArg (V m c main_arg7) (funext fun a => Fin.ext ?_)
  match a with
    | ⟨0, _⟩ => show win0_4.index t (0 : Fin 2) * 3 + 1 * (z 0).val = (z 0).val; rw [(idx_whole t).«4_0»]; omega
    | ⟨1, _⟩ => show win0_4.index t (1 : Fin 2) * 429 + 1 * (z 1).val = (z 1).val; rw [(idx_whole t).«4_1»]; omega

/-- Row p of the tile staged at point t is row 1024 t + p of the feature array: the same row the output tile's row p
    is written back to. -/
theorem blk_row (c : Dev nD) (t : Fin cfg0.N) (y : S1024x429.Idx) (j : Fin 429) :
    iblk m c 0 t (ix2 (n0 := 1024) (n1 := 429) (y 0) j)
      = V m c main_v7 (ix2 (n0 := 16384) (n1 := 429) ((((cfg0.win 5).blk t).view.emb y) 0) j) := by
  show V m c main_v7 (((cfg0.win 0).blk t).view.emb (ix2 (n0 := 1024) (n1 := 429) (y 0) j)) = _
  refine congrArg (V m c main_v7) (funext fun a => Fin.ext ?_)
  match a with
  | ⟨0, _⟩ => show win0_0.index t (0 : Fin 2) * 1024 + 1 * (y 0).val = win0_5.index t (0 : Fin 2) * 1024 + 1 * (y 0).val
              rw [(idx_whole t).«0_0», (idx_whole t).«5_0»]
  | ⟨1, _⟩ => show win0_0.index t (1 : Fin 2) * 429 + 1 * j.val = j.val
              rw [(idx_whole t).«0_1»]; omega

/-- The column of an output tile's entry is its column in the array. -/
theorem blk_col (t : Fin cfg0.N) (y : S1024x429.Idx) :
    ((((cfg0.win 5).blk t).view.emb y) 1 : Fin 429) = y 1 := by
  refine Fin.ext ?_
  show win0_5.index t (1 : Fin 2) * 429 + 1 * (y 1).val = (y 1).val
  rw [(idx_whole t).«5_1»]; omega

/-! ## What point t writes back -/

/-- What point t writes back is tile t of the three blocks applied row by row to the feature array. -/
theorem flushed_eq (c : Dev nD) (t : Fin cfg0.N) :
    (dats m 0 c).flushed 5 t = ((cfg0.win 5).blk t).view.read (Elt Ideal)
      (mlpArr (R := 16384) (V m c main_arg4) (V m c main_arg5) (V m c main_arg6) (V m c main_arg7) (V m c main_v7)) := by
  show (cfg0.win 5).cut (grid0.coords t) ((dats m 0 c).after 5 t) = _
  rw [after0_5, blk_w1 m c t, blk_b1 m c t, blk_w2 m c t, blk_b2 m c t]
  funext y
  show out0_5 (iblk m c 0 t) (V m c main_arg4) (V m c main_arg5) (V m c main_arg6) (V m c main_arg7) y
    = mlpArr (R := 16384) (V m c main_arg4) (V m c main_arg5) (V m c main_arg6) (V m c main_arg7) (V m c main_v7) (((cfg0.win 5).blk t).view.emb y)
  refine (out_tile_idx (iblk m c 0 t) (V m c main_arg4) (V m c main_arg5) (V m c main_arg6) (V m c main_arg7) y).trans ?_
  unfold mlpArr rowwise
  have hrow : (fun j : Fin 429 => iblk m c 0 t (ix2 (n0 := 1024) (n1 := 429) (y 0) j))
      = fun j => V m c main_v7 (ix2 (n0 := 16384) (n1 := 429) ((((cfg0.win 5).blk t).view.emb y) 0) j) :=
    funext fun j => blk_row m c t y j
  rw [hrow, blk_col t y]

/-! ## The cover -/

/-- An index of the array is in point t's block iff each coordinate is in the block's range on its axis. -/
theorem mem_blk (t : Fin cfg0.N) (i : S16384x429.Idx) :
    i ∈ ((cfg0.win 5).blk t).view.set ↔ ∀ a : Fin 2, win0_5.index t a * S1024x429.size a ≤ (i a).val ∧ (i a).val < win0_5.index t a * S1024x429.size a + S1024x429.size a := by
  show i ∈ ((View.whole main_v8).slice (win0_5.rect t)).set ↔ _
  rw [View.set_slice_whole, Rect.mem_set_unit]
  exact Iff.rfl

/-- Row r of the array lies in the tile of point r / 1024. -/
theorem cover (i : S16384x429.Idx) : ∃ t : Fin cfg0.N, (cfg0.win 5).flush t = true ∧ i ∈ ((cfg0.win 5).blk t).view.set := by
  have hi0 : (i 0).val < 16384 := (i 0).isLt
  have hi1 : (i 1).val < 429 := (i 1).isLt
  have hN : cfg0.N = 16 := N_0
  refine ⟨⟨(i 0).val / 1024, by rw [hN]; omega⟩, flush0_5 _, ?_⟩
  rw [mem_blk]
  intro a
  match a with
  | ⟨0, _⟩ => show win0_5.index _ (0 : Fin 2) * 1024 ≤ (i 0).val ∧ (i 0).val < win0_5.index _ (0 : Fin 2) * 1024 + 1024
              rw [(idx_whole _).«5_0»]; show (i 0).val / 1024 * 1024 ≤ (i 0).val ∧ (i 0).val < (i 0).val / 1024 * 1024 + 1024; omega
  | ⟨1, _⟩ => show win0_5.index _ (1 : Fin 2) * 429 ≤ (i 1).val ∧ (i 1).val < win0_5.index _ (1 : Fin 2) * 429 + 429
              rw [(idx_whole _).«5_1»]; omega

/-! ## The output array after the region -/

/-- The output array ends holding the three blocks applied row by row to the feature array as the region finds it. -/
theorem final_out (c : Dev nD) :
    (dats m 0 c).arrAt 5 cfg0.N
      = mlpArr (R := 16384) (V m c main_arg4) (V m c main_arg5) (V m c main_arg6) (V m c main_arg7) (V m c main_v7) :=
  (dats m 0 c).arrAt_eq_of_cover 5 _ (fun t _ => flushed_eq m c t) cover

end Cert.KernelIdeal.Hand

end
-- ==== Proof.RefLayers.lean ====
/-
  The reference's three residual blocks are the row function applied row by row.

  The reference computes each block on the whole array of 16384 rows with the host's matrix product, adds the bias
  rows by broadcasting, adds the block's input back and takes the positive part against a broadcast zero.  At the
  extended reals the host's product is, entry by entry, the plain sum of products over the contracted axis, so at row p,
  column q a block is `Cert.Mlp.layerRow` of row p of its input (`hostLayer_apply`); the parameters it reads are
  slices 0, 1, 2 of the stacked arrays, re-laid by a slice, a reshape and two broadcasts whose index arithmetic is
  done once per slice.  Composing the three blocks gives `Cert.Mlp.mlpArr` of the stacked feature array (`mlp_ref`).
-/
import proofs.«102849_j47614007443581_1_alg».proof.Proof.RefRead
import proofs.«102849_j47614007443581_1_alg».proof.Proof.MlpSpec
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx Cert.Mlp

/-! ## The host's two matrix products of a block, entry by entry -/

theorem hdot1_lhs0 (i : S16384x256.Idx) (q : dot_S16384x429_S429x256_S16384x256_1_0_0_1_n_n.contr.Idx) : (dot_S16384x429_S429x256_S16384x256_1_0_0_1_n_n.lhsIdx i q 0).val = (i 0).val := by
  unfold DotDims.lhsIdx
  rw [dif_neg (show ¬(0 : Fin S16384x429.rank) ∈ dot_S16384x429_S429x256_S16384x256_1_0_0_1_n_n.lhsBatch by decide), dif_pos (show (0 : Fin S16384x429.rank) ∈ dot_S16384x429_S429x256_S16384x256_1_0_0_1_n_n.lhsNonContracting by decide)]
  rfl
theorem hdot1_rhs1 (i : S16384x256.Idx) (q : dot_S16384x429_S429x256_S16384x256_1_0_0_1_n_n.contr.Idx) : (dot_S16384x429_S429x256_S16384x256_1_0_0_1_n_n.rhsIdx i q 1).val = (i 1).val := by
  unfold DotDims.rhsIdx
  rw [dif_neg (show ¬(1 : Fin S429x256.rank) ∈ dot_S16384x429_S429x256_S16384x256_1_0_0_1_n_n.rhsBatch by decide), dif_pos (show (1 : Fin S429x256.rank) ∈ dot_S16384x429_S429x256_S16384x256_1_0_0_1_n_n.rhsNonContracting by decide)]
  rfl

/-- The first product of a block on the whole array: entry (p, c) is the sum over the 429 features. -/
theorem hdot1_apply (l : FVec Ideal S16384x429 .f32) (r : FVec Ideal S429x256 .f32) (p : Fin 16384) (c : Fin 256) :
    Host.dotGeneral (F := Ideal) dot_S16384x429_S429x256_S16384x256_1_0_0_1_n_n none l r (ix2 p c) = ∑ k : Fin 429, l (ix2 p k) * r (ix2 k c) := by
  simp only [Host.dotGeneral]
  rw [Ideal.dotGeneral_apply, ← Equiv.sum_comp (ValueIdx.contrEquiv1 dot_S16384x429_S429x256_S16384x256_1_0_0_1_n_n 429 rfl rfl).symm]
  refine Finset.sum_congr rfl fun k _ => ?_
  have hk := ValueIdx.contrEquiv1_symm_val dot_S16384x429_S429x256_S16384x256_1_0_0_1_n_n 429 rfl rfl k
  have el : dot_S16384x429_S429x256_S16384x256_1_0_0_1_n_n.lhsIdx (ix2 p c) ((ValueIdx.contrEquiv1 dot_S16384x429_S429x256_S16384x256_1_0_0_1_n_n 429 rfl rfl).symm k) = ix2 p k := funext fun a => Fin.ext (by
    match a with
    | ⟨0, _⟩ => exact hdot1_lhs0 _ _
    | ⟨1, _⟩ => exact (dot_S16384x429_S429x256_S16384x256_1_0_0_1_n_n.lhsIdx_val_of_single rfl _ _).trans hk)
  have er : dot_S16384x429_S429x256_S16384x256_1_0_0_1_n_n.rhsIdx (ix2 p c) ((ValueIdx.contrEquiv1 dot_S16384x429_S429x256_S16384x256_1_0_0_1_n_n 429 rfl rfl).symm k) = ix2 k c := funext fun a => Fin.ext (by
    match a with
    | ⟨0, _⟩ => exact (dot_S16384x429_S429x256_S16384x256_1_0_0_1_n_n.rhsIdx_val_of_single rfl _ _).trans hk
    | ⟨1, _⟩ => exact hdot1_rhs1 _ _)
  rw [el, er]

theorem hdot2_lhs0 (i : S16384x429.Idx) (q : dot_S16384x256_S256x429_S16384x429_1_0_0_1_n_n.contr.Idx) : (dot_S16384x256_S256x429_S16384x429_1_0_0_1_n_n.lhsIdx i q 0).val = (i 0).val := by
  unfold DotDims.lhsIdx
  rw [dif_neg (show ¬(0 : Fin S16384x256.rank) ∈ dot_S16384x256_S256x429_S16384x429_1_0_0_1_n_n.lhsBatch by decide), dif_pos (show (0 : Fin S16384x256.rank) ∈ dot_S16384x256_S256x429_S16384x429_1_0_0_1_n_n.lhsNonContracting by decide)]
  rfl
theorem hdot2_rhs1 (i : S16384x429.Idx) (q : dot_S16384x256_S256x429_S16384x429_1_0_0_1_n_n.contr.Idx) : (dot_S16384x256_S256x429_S16384x429_1_0_0_1_n_n.rhsIdx i q 1).val = (i 1).val := by
  unfold DotDims.rhsIdx
  rw [dif_neg (show ¬(1 : Fin S256x429.rank) ∈ dot_S16384x256_S256x429_S16384x429_1_0_0_1_n_n.rhsBatch by decide), dif_pos (show (1 : Fin S256x429.rank) ∈ dot_S16384x256_S256x429_S16384x429_1_0_0_1_n_n.rhsNonContracting by decide)]
  rfl

/-- The second product of a block on the whole array: entry (p, c) is the sum over the 256 hidden units. -/
theorem hdot2_apply (l : FVec Ideal S16384x256 .f32) (r : FVec Ideal S256x429 .f32) (p : Fin 16384) (c : Fin 429) :
    Host.dotGeneral (F := Ideal) dot_S16384x256_S256x429_S16384x429_1_0_0_1_n_n none l r (ix2 p c) = ∑ k : Fin 256, l (ix2 p k) * r (ix2 k c) := by
  simp only [Host.dotGeneral]
  rw [Ideal.dotGeneral_apply, ← Equiv.sum_comp (ValueIdx.contrEquiv1 dot_S16384x256_S256x429_S16384x429_1_0_0_1_n_n 256 rfl rfl).symm]
  refine Finset.sum_congr rfl fun k _ => ?_
  have hk := ValueIdx.contrEquiv1_symm_val dot_S16384x256_S256x429_S16384x429_1_0_0_1_n_n 256 rfl rfl k
  have el : dot_S16384x256_S256x429_S16384x429_1_0_0_1_n_n.lhsIdx (ix2 p c) ((ValueIdx.contrEquiv1 dot_S16384x256_S256x429_S16384x429_1_0_0_1_n_n 256 rfl rfl).symm k) = ix2 p k := funext fun a => Fin.ext (by
    match a with
    | ⟨0, _⟩ => exact hdot2_lhs0 _ _
    | ⟨1, _⟩ => exact (dot_S16384x256_S256x429_S16384x429_1_0_0_1_n_n.lhsIdx_val_of_single rfl _ _).trans hk)
  have er : dot_S16384x256_S256x429_S16384x429_1_0_0_1_n_n.rhsIdx (ix2 p c) ((ValueIdx.contrEquiv1 dot_S16384x256_S256x429_S16384x429_1_0_0_1_n_n 256 rfl rfl).symm k) = ix2 k c := funext fun a => Fin.ext (by
    match a with
    | ⟨0, _⟩ => exact (dot_S16384x256_S256x429_S16384x429_1_0_0_1_n_n.rhsIdx_val_of_single rfl _ _).trans hk
    | ⟨1, _⟩ => exact hdot2_rhs1 _ _)
  rw [el, er]

/-- One block of the reference on whole arrays, at row p and column q, whatever arrays stand for its parameters. -/
theorem hostLayer_apply (X : FVec Ideal S16384x429 .f32) (W1 : FVec Ideal S429x256 .f32) (B1 : FVec Ideal S16384x256 .f32)
    (W2 : FVec Ideal S256x429 .f32) (B2 Z : FVec Ideal S16384x429 .f32) (p : Fin 16384) (q : Fin 429) :
    maximumf (addf (addf (Host.dotGeneral (F := Ideal) dot_S16384x256_S256x429_S16384x429_1_0_0_1_n_n none
        (addf (Host.dotGeneral (F := Ideal) dot_S16384x429_S429x256_S16384x256_1_0_0_1_n_n none X W1) B1) W2) B2) X) Z (ix2 p q)
      = max (((∑ k : Fin 256, ((∑ j : Fin 429, X (ix2 p j) * W1 (ix2 j k)) + B1 (ix2 p k)) * W2 (ix2 k q)) + B2 (ix2 p q)) + X (ix2 p q))
          (Z (ix2 p q)) := by
  rw [maximumf_apply, addf_apply, addf_apply, hdot2_apply]
  refine congrArg (fun s => max (s + B2 (ix2 p q) + X (ix2 p q)) (Z (ix2 p q))) (Finset.sum_congr rfl fun k _ => ?_)
  rw [addf_apply, hdot1_apply]

/-! ## The parameters each block reads, and the blocks -/

/-! ### Block 0 -/

/-- Slice 0 of the stacked first weights as the reference lays it out. -/
theorem w1_ref0 (x4 : (⟨S3x429x256, .f32⟩ : BufTy).Contents (Elt Ideal)) (j : Fin 429) (k : Fin 256) :
    val_main_v9 (F := Ideal) x4 (ix2 j k) = x4 (ix3 (0 : Fin 3) j k) := by
  have hj := j.isLt; have hk := k.isLt
  rw [val_main_v9_apply, val_main_v8_apply]
  refine congrArg x4 (funext fun a => Fin.ext ?_)
  match a with
  | ⟨0, _⟩ => rfl
  | ⟨1, _⟩ => show (j.val * 256 + k.val) / 256 % 429 = j.val; omega
  | ⟨2, _⟩ => show (j.val * 256 + k.val) % 256 = k.val; omega
/-- Slice 0 of the stacked first biases, repeated down the rows. -/
theorem b1_ref0 (x5 : (⟨S3x256, .f32⟩ : BufTy).Contents (Elt Ideal)) (p : Fin 16384) (k : Fin 256) :
    val_main_v14 (F := Ideal) x5 (ix2 p k) = x5 (ix2 (0 : Fin 3) k) := by
  have hk := k.isLt
  rw [val_main_v14_apply, val_main_v13_apply, val_main_v12_apply, val_main_v11_apply]
  refine congrArg x5 (funext fun a => Fin.ext ?_)
  match a with
  | ⟨0, _⟩ => rfl
  | ⟨1, _⟩ => show k.val % 256 = k.val; omega
/-- Slice 0 of the stacked second weights as the reference lays it out. -/
theorem w2_ref0 (x6 : (⟨S3x256x429, .f32⟩ : BufTy).Contents (Elt Ideal)) (k : Fin 256) (q : Fin 429) :
    val_main_v17 (F := Ideal) x6 (ix2 k q) = x6 (ix3 (0 : Fin 3) k q) := by
  have hk := k.isLt; have hq := q.isLt
  rw [val_main_v17_apply, val_main_v16_apply]
  refine congrArg x6 (funext fun a => Fin.ext ?_)
  match a with
  | ⟨0, _⟩ => rfl
  | ⟨1, _⟩ => show (k.val * 429 + q.val) / 429 % 256 = k.val; omega
  | ⟨2, _⟩ => show (k.val * 429 + q.val) % 429 = q.val; omega
/-- Slice 0 of the stacked second biases, repeated down the rows. -/
theorem b2_ref0 (x7 : (⟨S3x429, .f32⟩ : BufTy).Contents (Elt Ideal)) (p : Fin 16384) (q : Fin 429) :
    val_main_v22 (F := Ideal) x7 (ix2 p q) = x7 (ix2 (0 : Fin 3) q) := by
  have hq := q.isLt
  rw [val_main_v22_apply, val_main_v21_apply, val_main_v20_apply, val_main_v19_apply]
  refine congrArg x7 (funext fun a => Fin.ext ?_)
  match a with
  | ⟨0, _⟩ => rfl
  | ⟨1, _⟩ => show q.val % 429 = q.val; omega
/-- The zero the positive part is taken against. -/
theorem zero_ref0 (p : Fin 16384) (q : Fin 429) :
    val_main_call1_v0 (F := Ideal) (ix2 p q) = Ideal.ofBits .f32 0x00000000#32 := by
  rw [val_main_call1_v0_apply, val_main_call1_cst_apply]; rfl

/-- The reference's block 0 is block 0 of the stack applied row by row. -/
theorem layer0 (x0 : (⟨S16384x13, .f32⟩ : BufTy).Contents (Elt Ideal)) (x1 : (⟨S16384x26, .i32⟩ : BufTy).Contents (Elt Ideal)) (x3 : (⟨S26x100001x16, .f32⟩ : BufTy).Contents (Elt Ideal)) (x4 : (⟨S3x429x256, .f32⟩ : BufTy).Contents (Elt Ideal)) (x5 : (⟨S3x256, .f32⟩ : BufTy).Contents (Elt Ideal)) (x6 : (⟨S3x256x429, .f32⟩ : BufTy).Contents (Elt Ideal)) (x7 : (⟨S3x429, .f32⟩ : BufTy).Contents (Elt Ideal)) :
    val_main_v25 (F := Ideal) x0 x1 x3 x4 x5 x6 x7 = rowwise (R := 16384) (block (0 : Fin 3) x4 x5 x6 x7) (val_main_v7 (F := Ideal) x0 x1 x3) := by
  funext i
  obtain ⟨p, q, rfl⟩ : ∃ (p : Fin 16384) (q : Fin 429), i = ix2 p q := ⟨i 0, i 1, eq_ix2 i⟩
  rw [rowwise_apply]
  unfold val_main_v25 val_main_v24 val_main_v23 val_main_v18 val_main_v15 val_main_v10
  rw [hostLayer_apply]
  unfold block layerRow
  simp only [w1_ref0, b1_ref0, w2_ref0, b2_ref0, zero_ref0]

/-! ### Block 1 -/

/-- Slice 1 of the stacked first weights as the reference lays it out. -/
theorem w1_ref1 (x4 : (⟨S3x429x256, .f32⟩ : BufTy).Contents (Elt Ideal)) (j : Fin 429) (k : Fin 256) :
    val_main_v27 (F := Ideal) x4 (ix2 j k) = x4 (ix3 (1 : Fin 3) j k) := by
  have hj := j.isLt; have hk := k.isLt
  rw [val_main_v27_apply, val_main_v26_apply]
  refine congrArg x4 (funext fun a => Fin.ext ?_)
  match a with
  | ⟨0, _⟩ => rfl
  | ⟨1, _⟩ => show (j.val * 256 + k.val) / 256 % 429 = j.val; omega
  | ⟨2, _⟩ => show (j.val * 256 + k.val) % 256 = k.val; omega
/-- Slice 1 of the stacked first biases, repeated down the rows. -/
theorem b1_ref1 (x5 : (⟨S3x256, .f32⟩ : BufTy).Contents (Elt Ideal)) (p : Fin 16384) (k : Fin 256) :
    val_main_v32 (F := Ideal) x5 (ix2 p k) = x5 (ix2 (1 : Fin 3) k) := by
  have hk := k.isLt
  rw [val_main_v32_apply, val_main_v31_apply, val_main_v30_apply, val_main_v29_apply]
  refine congrArg x5 (funext fun a => Fin.ext ?_)
  match a with
  | ⟨0, _⟩ => rfl
  | ⟨1, _⟩ => show k.val % 256 = k.val; omega
/-- Slice 1 of the stacked second weights as the reference lays it out. -/
theorem w2_ref1 (x6 : (⟨S3x256x429, .f32⟩ : BufTy).Contents (Elt Ideal)) (k : Fin 256) (q : Fin 429) :
    val_main_v35 (F := Ideal) x6 (ix2 k q) = x6 (ix3 (1 : Fin 3) k q) := by
  have hk := k.isLt; have hq := q.isLt
  rw [val_main_v35_apply, val_main_v34_apply]
  refine congrArg x6 (funext fun a => Fin.ext ?_)
  match a with
  | ⟨0, _⟩ => rfl
  | ⟨1, _⟩ => show (k.val * 429 + q.val) / 429 % 256 = k.val; omega
  | ⟨2, _⟩ => show (k.val * 429 + q.val) % 429 = q.val; omega
/-- Slice 1 of the stacked second biases, repeated down the rows. -/
theorem b2_ref1 (x7 : (⟨S3x429, .f32⟩ : BufTy).Contents (Elt Ideal)) (p : Fin 16384) (q : Fin 429) :
    val_main_v40 (F := Ideal) x7 (ix2 p q) = x7 (ix2 (1 : Fin 3) q) := by
  have hq := q.isLt
  rw [val_main_v40_apply, val_main_v39_apply, val_main_v38_apply, val_main_v37_apply]
  refine congrArg x7 (funext fun a => Fin.ext ?_)
  match a with
  | ⟨0, _⟩ => rfl
  | ⟨1, _⟩ => show q.val % 429 = q.val; omega
/-- The zero the positive part is taken against. -/
theorem zero_ref1 (p : Fin 16384) (q : Fin 429) :
    val_main_call2_v0 (F := Ideal) (ix2 p q) = Ideal.ofBits .f32 0x00000000#32 := by
  rw [val_main_call2_v0_apply, val_main_call2_cst_apply]; rfl

/-- The reference's block 1 is block 1 of the stack applied row by row. -/
theorem layer1 (x0 : (⟨S16384x13, .f32⟩ : BufTy).Contents (Elt Ideal)) (x1 : (⟨S16384x26, .i32⟩ : BufTy).Contents (Elt Ideal)) (x3 : (⟨S26x100001x16, .f32⟩ : BufTy).Contents (Elt Ideal)) (x4 : (⟨S3x429x256, .f32⟩ : BufTy).Contents (Elt Ideal)) (x5 : (⟨S3x256, .f32⟩ : BufTy).Contents (Elt Ideal)) (x6 : (⟨S3x256x429, .f32⟩ : BufTy).Contents (Elt Ideal)) (x7 : (⟨S3x429, .f32⟩ : BufTy).Contents (Elt Ideal)) :
    val_main_v43 (F := Ideal) x0 x1 x3 x4 x5 x6 x7 = rowwise (R := 16384) (block (1 : Fin 3) x4 x5 x6 x7) (val_main_v25 (F := Ideal) x0 x1 x3 x4 x5 x6 x7) := by
  funext i
  obtain ⟨p, q, rfl⟩ : ∃ (p : Fin 16384) (q : Fin 429), i = ix2 p q := ⟨i 0, i 1, eq_ix2 i⟩
  rw [rowwise_apply]
  unfold val_main_v43 val_main_v42 val_main_v41 val_main_v36 val_main_v33 val_main_v28
  rw [hostLayer_apply]
  unfold block layerRow
  simp only [w1_ref1, b1_ref1, w2_ref1, b2_ref1, zero_ref1]

/-! ### Block 2 -/

/-- Slice 2 of the stacked first weights as the reference lays it out. -/
theorem w1_ref2 (x4 : (⟨S3x429x256, .f32⟩ : BufTy).Contents (Elt Ideal)) (j : Fin 429) (k : Fin 256) :
    val_main_v45 (F := Ideal) x4 (ix2 j k) = x4 (ix3 (2 : Fin 3) j k) := by
  have hj := j.isLt; have hk := k.isLt
  rw [val_main_v45_apply, val_main_v44_apply]
  refine congrArg x4 (funext fun a => Fin.ext ?_)
  match a with
  | ⟨0, _⟩ => rfl
  | ⟨1, _⟩ => show (j.val * 256 + k.val) / 256 % 429 = j.val; omega
  | ⟨2, _⟩ => show (j.val * 256 + k.val) % 256 = k.val; omega
/-- Slice 2 of the stacked first biases, repeated down the rows. -/
theorem b1_ref2 (x5 : (⟨S3x256, .f32⟩ : BufTy).Contents (Elt Ideal)) (p : Fin 16384) (k : Fin 256) :
    val_main_v50 (F := Ideal) x5 (ix2 p k) = x5 (ix2 (2 : Fin 3) k) := by
  have hk := k.isLt
  rw [val_main_v50_apply, val_main_v49_apply, val_main_v48_apply, val_main_v47_apply]
  refine congrArg x5 (funext fun a => Fin.ext ?_)
  match a with
  | ⟨0, _⟩ => rfl
  | ⟨1, _⟩ => show k.val % 256 = k.val; omega
/-- Slice 2 of the stacked second weights as the reference lays it out. -/
theorem w2_ref2 (x6 : (⟨S3x256x429, .f32⟩ : BufTy).Contents (Elt Ideal)) (k : Fin 256) (q : Fin 429) :
    val_main_v53 (F := Ideal) x6 (ix2 k q) = x6 (ix3 (2 : Fin 3) k q) := by
  have hk := k.isLt; have hq := q.isLt
  rw [val_main_v53_apply, val_main_v52_apply]
  refine congrArg x6 (funext fun a => Fin.ext ?_)
  match a with
  | ⟨0, _⟩ => rfl
  | ⟨1, _⟩ => show (k.val * 429 + q.val) / 429 % 256 = k.val; omega
  | ⟨2, _⟩ => show (k.val * 429 + q.val) % 429 = q.val; omega
/-- Slice 2 of the stacked second biases, repeated down the rows. -/
theorem b2_ref2 (x7 : (⟨S3x429, .f32⟩ : BufTy).Contents (Elt Ideal)) (p : Fin 16384) (q : Fin 429) :
    val_main_v58 (F := Ideal) x7 (ix2 p q) = x7 (ix2 (2 : Fin 3) q) := by
  have hq := q.isLt
  rw [val_main_v58_apply, val_main_v57_apply, val_main_v56_apply, val_main_v55_apply]
  refine congrArg x7 (funext fun a => Fin.ext ?_)
  match a with
  | ⟨0, _⟩ => rfl
  | ⟨1, _⟩ => show q.val % 429 = q.val; omega
/-- The zero the positive part is taken against. -/
theorem zero_ref2 (p : Fin 16384) (q : Fin 429) :
    val_main_call3_v0 (F := Ideal) (ix2 p q) = Ideal.ofBits .f32 0x00000000#32 := by
  rw [val_main_call3_v0_apply, val_main_call3_cst_apply]; rfl

/-- The reference's block 2 is block 2 of the stack applied row by row. -/
theorem layer2 (x0 : (⟨S16384x13, .f32⟩ : BufTy).Contents (Elt Ideal)) (x1 : (⟨S16384x26, .i32⟩ : BufTy).Contents (Elt Ideal)) (x3 : (⟨S26x100001x16, .f32⟩ : BufTy).Contents (Elt Ideal)) (x4 : (⟨S3x429x256, .f32⟩ : BufTy).Contents (Elt Ideal)) (x5 : (⟨S3x256, .f32⟩ : BufTy).Contents (Elt Ideal)) (x6 : (⟨S3x256x429, .f32⟩ : BufTy).Contents (Elt Ideal)) (x7 : (⟨S3x429, .f32⟩ : BufTy).Contents (Elt Ideal)) :
    val_main_v61 (F := Ideal) x0 x1 x3 x4 x5 x6 x7 = rowwise (R := 16384) (block (2 : Fin 3) x4 x5 x6 x7) (val_main_v43 (F := Ideal) x0 x1 x3 x4 x5 x6 x7) := by
  funext i
  obtain ⟨p, q, rfl⟩ : ∃ (p : Fin 16384) (q : Fin 429), i = ix2 p q := ⟨i 0, i 1, eq_ix2 i⟩
  rw [rowwise_apply]
  unfold val_main_v61 val_main_v60 val_main_v59 val_main_v54 val_main_v51 val_main_v46
  rw [hostLayer_apply]
  unfold block layerRow
  simp only [w1_ref2, b1_ref2, w2_ref2, b2_ref2, zero_ref2]

/-- The reference's three blocks are the three blocks of the stack applied row by row to the feature array. -/
theorem mlp_ref (x0 : (⟨S16384x13, .f32⟩ : BufTy).Contents (Elt Ideal)) (x1 : (⟨S16384x26, .i32⟩ : BufTy).Contents (Elt Ideal)) (x3 : (⟨S26x100001x16, .f32⟩ : BufTy).Contents (Elt Ideal)) (x4 : (⟨S3x429x256, .f32⟩ : BufTy).Contents (Elt Ideal)) (x5 : (⟨S3x256, .f32⟩ : BufTy).Contents (Elt Ideal)) (x6 : (⟨S3x256x429, .f32⟩ : BufTy).Contents (Elt Ideal)) (x7 : (⟨S3x429, .f32⟩ : BufTy).Contents (Elt Ideal)) :
    val_main_v61 (F := Ideal) x0 x1 x3 x4 x5 x6 x7 = mlpArr (R := 16384) x4 x5 x6 x7 (val_main_v7 (F := Ideal) x0 x1 x3) := by
  rw [layer2, layer1, layer0, mlpArr_eq]

end Cert.ReferenceIdeal.Hand

end
-- ==== Proof.KernelRun.lean ====
/-
  The idealized kernel's whole program, read: what its two results hold after every run.

  Around the region the program runs the same host lines as the reference.  Before it: the table lookup, the
  re-layout and the concatenation that build the stacked feature array — the array the region finds is the
  reference's feature array of the same arguments (`V_features`: the two programs print the same operations).  After
  it: the read-out — a product with the last weight column, the last bias, and the logistic function — applied to
  the region's output array, which is the three residual blocks applied row by row to the feature array
  (`final_out`), and by `mlp_ref` that is what the reference feeds to its own read-out.  So the first result is the
  reference's result term of the same arguments (`result_eq`), the second is the label argument, untouched.
-/
import proofs.«102849_j47614007443581_1_alg».proof.Proof.KernelArray
import proofs.«102849_j47614007443581_1_alg».proof.Proof.RefLayers
import Idealize.ShloMosaic.Lib.StableHlo.Run
import Idealize.ShloMosaic.Lib.Pipeline.FrameSuffix

noncomputable section

namespace Cert.KernelIdeal.Hand

open Cert.KernelIdeal Cert.KernelIdeal.Gen Idealize.ShloMosaic Idealize.ShloMosaic.TcCoe Idealize.ShloMosaic.ValueIdx Idealize.SL.Sem Cert.Mlp
open Idealize.ShloMosaic.StableHlo
open Idealize.ShloMosaic.Pipeline (Dat)

variable (m : (ℓ : Loc nD τ sig) → Buf (Elt Ideal) ℓ) (ρ : Dev nD → PrngReg)

set_option maxHeartbeats 40000000 in
set_option maxRecDepth 65536 in
/-- The stacked feature array the region finds is the reference's feature array of the same three arguments: the host
    lines before the region are the reference's first lines. -/
theorem V_features (c : Dev nD) :
    V m c main_v7 = Cert.ReferenceIdeal.ReadP.val_main_v7 (F := Ideal) (m ((c.tc : Thread nD τ).loc main_arg0)) (m ((c.tc : Thread nD τ).loc main_arg1)) (m ((c.tc : Thread nD τ).loc main_arg3)) := by
  dsimp only [V, V0]
  simp only [hostOps0, hostOps0_1, hostOps0_2, List.flatten_cons, List.flatten_nil, List.append_nil, List.cons_append, List.nil_append]
  after_results
  dsimp only [TRef.toBuf, TRef.ofBuf, cast_eq]
  rfl

/-- The program's first result is the reference's result term of the same arguments. -/
theorem result_eq (c : Dev nD) :
    Pipeline.afterTail₀ cfgs (dats m) 0 (V0 m) [hostOps1] c main_v18
      = Cert.ReferenceIdeal.ReadP.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Pipeline.afterTail₀
  show StableHlo.after hostOps1 _ (Proc.devRef .tc main_v18) = _
  after_results
  generalize hW : Pipeline.withArrays _ c (V0 m c) _ = W
  have e8 : W (Proc.devRef .tc main_v8)
      = mlpArr (R := 16384) (V m c main_arg4) (V m c main_arg5) (V m c main_arg6) (V m c main_arg7) (V m c main_v7) := by
    rw [← hW]
    exact (Pipeline.withArrays_arr spec0 launch0.win.arr_inj c _ _ 5).trans (final_out m c)
  have ea8 : W (Proc.devRef .tc main_arg8) = m ((c.tc : Thread nD τ).loc main_arg8) := by
    rw [← hW]
    exact (Pipeline.withArrays_of_ne _ c (V0 m c) _ main_arg8 (by exact (by decide : ∀ w, Pipeline.arrRef spec0 w ≠ main_arg8))).trans (V_main_arg8 m c)
  have ea9 : W (Proc.devRef .tc main_arg9) = m ((c.tc : Thread nD τ).loc main_arg9) := by
    rw [← hW]
    exact (Pipeline.withArrays_of_ne _ c (V0 m c) _ main_arg9 (by exact (by decide : ∀ w, Pipeline.arrRef spec0 w ≠ main_arg9))).trans (V_main_arg9 m c)
  rw [e8, ea8, ea9, V_features m c, V_main_arg4 m c, V_main_arg5 m c, V_main_arg6 m c, V_main_arg7 m c,
    ← Cert.ReferenceIdeal.Hand.mlp_ref]
  rfl

/-- Every run of the idealized kernel's program ends with the first result at the reference's result term of the
    arguments, the second at the label argument, and the arguments unchanged. -/
theorem kernel_run : θ_run defs (onTc (τ := τ) (main (F := Ideal))) ⟨m, fun _ => 0, ρ⟩ (fun r => ∀ c : Dev nD,
      r.2.mem ((c.tc : Thread nD τ).loc main_v18) = Cert.ReferenceIdeal.ReadP.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v18 (Pipeline.mem_restRefs_of main_v18 (by decide) (by decide))).trans (result_eq m c),
      (((h c).2 main_arg2 (Pipeline.mem_restRefs_of main_arg2 (by decide) (by decide))).trans (W_main_arg2 m (dats m) c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.Hand

end
-- ==== Proof.lean ====
/-
  A residual multilayer perceptron over looked-up embeddings: the kernel against its reference, at the extended reals.

  Both programs gather one embedding row per sparse field from the stacked tables, lay the 26 × 16 gathered numbers
  and the 13 dense features side by side as a row of 429 features, pass every row through three residual blocks

      x  |->  max ( (x · W1 + b1) · W2 + b2 + x , 0 ),

  and read out the logistic function of a last affine map; the label argument is returned as it came.  The reference
  does all of it on the host.  The kernel does the gather, the re-layout and the read-out on the host with the same
  lines, and the three blocks in one tiled region: the grid's point t stages rows 1024 t … 1024 t + 1023 of the
  feature array and the four parameter stacks whole, rounds the products' operands to bf16 (the identity on the
  extended reals), and writes the rows' results back.  A row's result depends on that row alone, so the sixteen
  tiles together hold what the reference's whole-array operations compute: the function `Cert.Mlp.mlpArr` of the
  feature array (Proof/KernelArray.lean for the region, Proof/RefLayers.lean for the reference).  No algebraic law
  beyond the definitions is needed — both sides add and multiply in the same order within a row — and so no use is
  made of the inputs being finite.

  The frames of the two kernel programs are the generated ones; the reference's is its run with the results dropped.
  The idealization rewrote nothing, so there is nothing to preserve.
-/
import proofs.«102849_j47614007443581_1_alg».proof.Defs
import proofs.«102849_j47614007443581_1_alg».proof.Proof.Gen.Kernel
import proofs.«102849_j47614007443581_1_alg».proof.Proof.Gen.Kernel.Skeleton
import proofs.«102849_j47614007443581_1_alg».proof.Proof.Gen.Kernel.Launch
import proofs.«102849_j47614007443581_1_alg».proof.Proof.Gen.Kernel.Points
import proofs.«102849_j47614007443581_1_alg».proof.Proof.Gen.Kernel.Frame
import proofs.«102849_j47614007443581_1_alg».proof.Proof.Gen.KernelIdeal
import proofs.«102849_j47614007443581_1_alg».proof.Proof.Gen.KernelIdeal.Skeleton
import proofs.«102849_j47614007443581_1_alg».proof.Proof.Gen.KernelIdeal.Launch
import proofs.«102849_j47614007443581_1_alg».proof.Proof.Gen.KernelIdeal.Points
import proofs.«102849_j47614007443581_1_alg».proof.Proof.Gen.KernelIdeal.Frame
import proofs.«102849_j47614007443581_1_alg».proof.Proof.Gen.ReferenceIdeal
import proofs.«102849_j47614007443581_1_alg».proof.Proof.Gen.Pre_finite_inputs
import proofs.«102849_j47614007443581_1_alg».proof.Proof.RefRun
import proofs.«102849_j47614007443581_1_alg».proof.Proof.RefRead
import proofs.«102849_j47614007443581_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with what it says of the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the arguments both programs end with the reference's result term of those arguments and
    with the label argument. -/
theorem algebraic : Cert.algebraic_KernelIdeal_ReferenceIdeal := by
  intro m ρ m' ρ' _ hagree
  refine ⟨fun c => Cert.ReferenceIdeal.ReadP.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => m ((c.tc : Thread Cert.KernelIdeal.nD Cert.KernelIdeal.τ).loc Cert.KernelIdeal.main_arg2),
    Cert.KernelIdeal.Hand.kernel_run m ρ, ?_⟩
  refine (θ_run Cert.ReferenceIdeal.defs _ _).mono (fun _ h c => ?_) (Cert.ReferenceIdeal.ValueP.run (F := Ideal) m' ρ')
  obtain ⟨e0, e1, e2, e3, e4, e5, e6, e7, e8, e9⟩ := hagree c
  refine ⟨(h c).1.trans ?_, (h c).2.1.trans e2, (h c).2.2⟩
  rw [Cert.ReferenceIdeal.ReadP.val_main_v71_eq, e0, e1, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
